-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S100000 : Shape := ⟨1, ![100000]⟩
abbrev S16x128 : Shape := ⟨2, ![16, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x128 .f32) (main_arg9 : FVec F S128x2 .f32) (main_arg10 : FVec F S2 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_v33

def fn {F : FTy → Type} [FloatOps F] (main_arg0 : FVec F S100000x16 .f32) (main_arg1 : IVec S2x1600000 32) (main_arg2 : IVec S100000 32) (main_arg3 : FVec F S16x128 .f32) (main_arg4 : FVec F S128 .f32) (main_arg5 : FVec F S16x128 .f32) (main_arg6 : FVec F S128x128 .f32) (main_arg7 : FVec F S128 .f32) (main_arg8 : FVec F S128x128 .f32) (main_arg9 : FVec F S128x2 .f32) (main_arg10 : FVec F S2 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x128 .f32 := Host.absf main_arg3
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S16x128 .f32 := Host.absf main_arg5
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg6 main_arg7 main_arg8 main_arg9 main_arg10 main_v13 main_v16
-- ==== Kernel.lean ====
abbrev S100000x16 : Shape := ⟨2, ![100000, 16]⟩
abbrev S2x1600000 : Shape := ⟨2, ![2, 1600000]⟩
abbrev S100000 : Shape := ⟨1, ![100000]⟩
abbrev S16x128 : Shape := ⟨2, ![16, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x16 : Shape := ⟨2, ![1600000, 16]⟩
abbrev S1x128 : Shape := ⟨2, ![1, 128]⟩
abbrev S100000x128 : Shape := ⟨2, ![100000, 128]⟩
abbrev S10000x16 : Shape := ⟨2, ![10000, 16]⟩
abbrev S10000x128 : Shape := ⟨2, ![10000, 128]⟩
abbrev S1600000x128 : Shape := ⟨2, ![1600000, 128]⟩
abbrev S2048x128 : Shape := ⟨2, ![2048, 128]⟩
abbrev S100000x1 : Shape := ⟨2, ![100000, 1]⟩
abbrev S2048 : Shape := ⟨1, ![2048]⟩
abbrev S2048x1 : Shape := ⟨2, ![2048, 1]⟩
abbrev S1x2 : Shape := ⟨2, ![1, 2]⟩
abbrev S2048x2 : Shape := ⟨2, ![2048, 2]⟩

abbrev nBuf : Space → Nat
  | .hbm => 64
  | .vmem => 23
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S100000, .i32⟩
  | .hbm, ⟨3, _⟩ => ⟨S16x128, .f32⟩
  | .hbm, ⟨4, _⟩ => ⟨S128, .f32⟩
  | .hbm, ⟨5, _⟩ => ⟨S16x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x2, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x16, .f32⟩
  | .hbm, ⟨24, _⟩ => ⟨S_, .f32⟩
  | .hbm, ⟨25, _⟩ => ⟨S100000x16, .f32⟩
  | .hbm, ⟨26, _⟩ => ⟨S1600000x1, .i32⟩
  | .hbm, ⟨27, _⟩ => ⟨S100000x16, .f32⟩
  | .hbm, ⟨28, _⟩ => ⟨S100000x16, .bf16⟩
  | .hbm, ⟨29, _⟩ => ⟨S100000x16, .bf16⟩
  | .hbm, ⟨30, _⟩ => ⟨S1x128, .f32⟩
  | .hbm, ⟨31, _⟩ => ⟨S100000x128, .bf16⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .bf16⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x128, .bf16⟩
  | .hbm, ⟨47, _⟩ => ⟨S1x128, .f32⟩
  | .hbm, ⟨48, _⟩ => ⟨S100000x128, .bf16⟩
  | .hbm, ⟨49, _⟩ => ⟨S100000x128, .f32⟩
  | .hbm, ⟨50, _⟩ => ⟨S_, .f32⟩
  | .hbm, ⟨51, _⟩ => ⟨S2048x128, .f32⟩
  | .hbm, ⟨52, _⟩ => ⟨S100000x1, .i32⟩
  | .hbm, ⟨53, _⟩ => ⟨S2048x128, .f32⟩
  | .hbm, ⟨54, _⟩ => ⟨S_, .f32⟩
  | .hbm, ⟨55, _⟩ => ⟨S100000, .f32⟩
  | .hbm, ⟨56, _⟩ => ⟨S_, .f32⟩
  | .hbm, ⟨57, _⟩ => ⟨S2048, .f32⟩
  | .hbm, ⟨58, _⟩ => ⟨S100000x1, .i32⟩
  | .hbm, ⟨59, _⟩ => ⟨S2048, .f32⟩
  | .hbm, ⟨60, _⟩ => ⟨S2048x1, .f32⟩
  | .hbm, ⟨61, _⟩ => ⟨S2048x128, .f32⟩
  | .hbm, ⟨62, _⟩ => ⟨S1x2, .f32⟩
  | .hbm, ⟨63, _⟩ => ⟨S2048x2, .f32⟩
  | .local _ .vmem, ⟨0, _⟩ => ⟨S10000x16, .bf16⟩
  | .local _ .vmem, ⟨1, _⟩ => ⟨S10000x16, .bf16⟩
  | .local _ .vmem, ⟨2, _⟩ => ⟨S10000x16, .bf16⟩
  | .local _ .vmem, ⟨3, _⟩ => ⟨S10000x16, .bf16⟩
  | .local _ .vmem, ⟨4, _⟩ => ⟨S16x128, .f32⟩
  | .local _ .vmem, ⟨5, _⟩ => ⟨S1x128, .f32⟩
  | .local _ .vmem, ⟨6, _⟩ => ⟨S16x128, .f32⟩
  | .local _ .vmem, ⟨7, _⟩ => ⟨S10000x128, .bf16⟩
  | .local _ .vmem, ⟨8, _⟩ => ⟨S10000x128, .bf16⟩
  | .local _ .vmem, ⟨9, _⟩ => ⟨S10000x128, .bf16⟩
  | .local _ .vmem, ⟨10, _⟩ => ⟨S10000x128, .bf16⟩
  | .local _ .vmem, ⟨11, _⟩ => ⟨S10000x128, .bf16⟩
  | .local _ .vmem, ⟨12, _⟩ => ⟨S10000x128, .bf16⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S10000x128, .bf16⟩
  | .local _ .vmem, ⟨17, _⟩ => ⟨S10000x128, .bf16⟩
  | .local _ .vmem, ⟨18, _⟩ => ⟨S2048x128, .f32⟩
  | .local _ .vmem, ⟨19, _⟩ => ⟨S2048x128, .f32⟩
  | .local _ .vmem, ⟨20, _⟩ => ⟨S128x2, .f32⟩
  | .local _ .vmem, ⟨21, _⟩ => ⟨S1x2, .f32⟩
  | .local _ .vmem, ⟨22, _⟩ => ⟨S2048x2, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2048x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x16 : S_.BroadcastsInDim S100000x16 (![] : Fin 0 → Fin S100000x16.rank)
  bitsLt_bf16_f32 : FTy.bits .bf16 < FTy.bits .f32
  shapeCasts_S128_S1x128 : S128.ShapeCasts S1x128
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  bcast_S_S100000x128 : S_.BroadcastsInDim S100000x128 (![] : Fin 0 → Fin S100000x128.rank)
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S2048 : S_.BroadcastsInDim S2048 (![] : Fin 0 → Fin S2048.rank)
  shapeCasts_S2048_S2048x1 : S2048.ShapeCasts S2048x1
  bcast_S2048x1_S2048x128_0_1 : S2048x1.BroadcastsInDim S2048x128 (![0, 1] : Fin 2 → Fin S2048x128.rank)
  shapeCasts_S2_S1x2 : S2.ShapeCasts S1x2
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S10000x16_S16x128_S10000x128_1_0_0_1_n_n_wf : DotDims.WF S10000x16 S16x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  scatter_S2048x128_S100000x1_S100000x128_1_0_0_1_wf : ScatterDims.WF S2048x128 S100000x1 S100000x128 [1] [0] [0] 1
  scatter_S2048_S100000x1_S100000_n_0_0_1_wf : ScatterDims.WF S2048 S100000x1 S100000 [] [0] [0] 1
  dot_S2048x128_S128x2_S2048x2_1_0_0_1_n_n_wf : DotDims.WF S2048x128 S128x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .bf16 = 32 ∨ (Rect.block (s := S100000x16) S10000x16.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S100000x16.size a
  hwx0_1 : ∀ i : grid0.Coords, EltTy.bits .bf16 = 32 ∨ (Rect.block (s := S100000x16) S10000x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S16x128.size a
  hwx0_4 : ∀ i : grid0.Coords, EltTy.bits .f32 = 32 ∨ (Rect.block (s := S16x128) S16x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .bf16 = 32 ∨ (Rect.block (s := S100000x128) S10000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .bf16 = 32 ∨ (Rect.block (s := S100000x128) S10000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .bf16 = 32 ∨ (Rect.block (s := S100000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .bf16 = 32 ∨ (Rect.block (s := S100000x128) S10000x128.size (cc1_transform_5 i) (hinb1_5 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S2048x128.size a
  hwx2_0 : ∀ i : grid2.Coords, EltTy.bits .f32 = 32 ∨ (Rect.block (s := S2048x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S2048x128.size a
  hwx2_1 : ∀ i : grid2.Coords, EltTy.bits .f32 = 32 ∨ (Rect.block (s := S2048x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x2.size a ≤ S128x2.size a
  hwx2_2 : ∀ i : grid2.Coords, EltTy.bits .f32 = 32 ∨ (Rect.block (s := S128x2) S128x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2048x2.size a ≤ S2048x2.size a
  hwx2_4 : ∀ i : grid2.Coords, EltTy.bits .f32 = 32 ∨ (Rect.block (s := S2048x2) S2048x2.size (cc2_transform_4 i) (hinb2_4 i)).WholeWords (EltTy.packing .f32)

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf

abbrev win0_0 : Pipeline.Window sig grid0 :=
  Pipeline.Window.ofSpec (Memref.whole main_v14) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S16x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S2048x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v41) S2048x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S2048x2.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S100000 : Shape := ⟨1, ![100000]⟩
abbrev S16x128 : Shape := ⟨2, ![16, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x16 : Shape := ⟨2, ![1600000, 16]⟩
abbrev S100000x128 : Shape := ⟨2, ![100000, 128]⟩
abbrev S1x128 : Shape := ⟨2, ![1, 128]⟩
abbrev S1600000x128 : Shape := ⟨2, ![1600000, 128]⟩
abbrev S2048x128 : Shape := ⟨2, ![2048, 128]⟩
abbrev S100000x1 : Shape := ⟨2, ![100000, 1]⟩
abbrev S2048 : Shape := ⟨1, ![2048]⟩
abbrev S2048x1 : Shape := ⟨2, ![2048, 1]⟩
abbrev S2048x2 : Shape := ⟨2, ![2048, 2]⟩
abbrev S1x2 : Shape := ⟨2, ![1, 2]⟩

abbrev nBuf : Space → Nat
  | .hbm => 79
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S100000, .i32⟩
  | .hbm, ⟨3, _⟩ => ⟨S16x128, .f32⟩
  | .hbm, ⟨4, _⟩ => ⟨S128, .f32⟩
  | .hbm, ⟨5, _⟩ => ⟨S16x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x2, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x16, .f32⟩
  | .hbm, ⟨24, _⟩ => ⟨S_, .f32⟩
  | .hbm, ⟨25, _⟩ => ⟨S100000x16, .f32⟩
  | .hbm, ⟨26, _⟩ => ⟨S1600000x1, .i32⟩
  | .hbm, ⟨27, _⟩ => ⟨S100000x16, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S2048x128, .f32⟩
  | .hbm, ⟨61, _⟩ => ⟨S100000x1, .i32⟩
  | .hbm, ⟨62, _⟩ => ⟨S2048x128, .f32⟩
  | .hbm, ⟨63, _⟩ => ⟨S_, .f32⟩
  | .hbm, ⟨64, _⟩ => ⟨S100000, .f32⟩
  | .hbm, ⟨65, _⟩ => ⟨S_, .f32⟩
  | .hbm, ⟨66, _⟩ => ⟨S2048, .f32⟩
  | .hbm, ⟨67, _⟩ => ⟨S100000x1, .i32⟩
  | .hbm, ⟨68, _⟩ => ⟨S2048, .f32⟩
  | .hbm, ⟨69, _⟩ => ⟨S_, .f32⟩
  | .hbm, ⟨70, _⟩ => ⟨S2048, .f32⟩
  | .hbm, ⟨71, _⟩ => ⟨S2048, .f32⟩
  | .hbm, ⟨72, _⟩ => ⟨S2048x1, .f32⟩
  | .hbm, ⟨73, _⟩ => ⟨S2048x128, .f32⟩
  | .hbm, ⟨74, _⟩ => ⟨S2048x128, .f32⟩
  | .hbm, ⟨75, _⟩ => ⟨S2048x2, .f32⟩
  | .hbm, ⟨76, _⟩ => ⟨S1x2, .f32⟩
  | .hbm, ⟨77, _⟩ => ⟨S2048x2, .f32⟩
  | .hbm, ⟨78, _⟩ => ⟨S2048x2, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x16 : S_.BroadcastsInDim S100000x16 (![] : Fin 0 → Fin S100000x16.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x128_S100000x128_1_0_0_1_n_n_wf : DotDims.WF S100000x16 S16x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S2048x128_S100000x1_S100000x128_1_0_0_1_wf : ScatterDims.WF S2048x128 S100000x1 S100000x128 [1] [0] [0] 1
  scatter_S2048_S100000x1_S100000_n_0_0_1_wf : ScatterDims.WF S2048 S100000x1 S100000 [] [0] [0] 1
  dot_S2048x128_S128x2_S2048x2_1_0_0_1_n_n_wf : DotDims.WF S2048x128 S128x2 S2048x2 [1] [0] [0] [1] [] []

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf

class Facts : Prop extends Facts₀ where

variable [Facts]
-- ==== Proof.OutRun.lean ====
/-
  THE IDEALIZED KERNEL'S RUN, WITH ITS RESULT ARRAY NAMED.

  The program is six segments: host operations, the first convolution region, host operations, the second convolution region,
  host operations, the read-out region.  The contents of the TensorCore's buffers at each boundary are a fold from the
  launch memory: a host stretch applies its operations, a region leaves each of its arrays at what its write-backs leave
  and every other buffer as it found it.  Every weakly fair execution terminates without a fault with every unscoped
  buffer at the last boundary's contents; read at the result buffer this names the result, and read at an argument it
  gives the argument back unchanged.
-/
import proofs.«178044_j47218870452627_2_alg».proof.Proof.Gen.KernelIdeal.Frame

set_option maxRecDepth 16384

noncomputable section

namespace Cert.KernelIdeal.OutRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and every argument as launched. -/
theorem run_out : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.OutRun

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«178044_j47218870452627_2_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.LibDenseStep.lean ====
/-
  DENSE LAYERS STEP BY STEP, at the ideal values: from what the operand's row is to what the result's row is.

  Stated over LibDenseRow's row functions `layer` and `act`.  Each lemma takes as a hypothesis what row `p` of the operand is
  (`ha`) and what the weight's entries are (`hw`), and returns row `p` of the result, so that a chain of layers is read by
  nesting them.  Two spellings: on the vector unit (a matrix product into the zero accumulator; a one-row bias `[1, N]` cast
  to itself and broadcast over the rows; the rectifier against the zero word splat) and on the host (`dot_general`; the bias
  `[N]` broadcast to `[1, N]` and then over the rows; the rectifier against the zero constant broadcast from a scalar).
  Also: the host's broadcasts of a constant, of a column across columns, and the other keep-dimension broadcasts of a
  batch of tables, read at an index; and two tactics that decide, for a printed contraction record that contracts the
  operand's columns with the weight's rows, which operand entries an output entry reads.
  No algebra of the extended reals is used.
-/
import proofs.«178044_j47218870452627_2_alg».proof.Proof.LibRowBias

noncomputable section

open scoped BigOperators

namespace Cert.DenseStep

open Idealize.ShloMosaic Idealize.ShloMosaic.ValueIdx Cert.DenseRow Cert.RowBias

/-! ## The contraction records: operand indices at an output index -/

/-- For a record contracting the operand's columns with the weight's rows: the operand index at output `(p, c)` and
    contraction coordinate `k` is `(p, k)`. -/
macro "plain_lhs " d:ident K:num : tactic => `(tactic| (
  intro p c k
  funext a
  apply Fin.ext
  match a with
  | ⟨0, _⟩ =>
    show (DotDims.lhsIdx $d (ix2 p c) ((contrEquiv1 $d $K rfl rfl).symm k) 0).val = p.val
    unfold DotDims.lhsIdx
    rw [dif_neg (by decide), dif_pos (by decide)]
    rfl
  | ⟨1, _⟩ => exact (DotDims.lhsIdx_val_of_single $d rfl _ _).trans (contrEquiv1_symm_val $d $K rfl rfl k)))

/-- … and the weight index is `(k, c)`. -/
macro "plain_rhs " d:ident K:num : tactic => `(tactic| (
  intro p c k
  funext a
  apply Fin.ext
  match a with
  | ⟨0, _⟩ => exact (DotDims.rhsIdx_val_of_single $d rfl _ _).trans (contrEquiv1_symm_val $d $K rfl rfl k)
  | ⟨1, _⟩ =>
    show (DotDims.rhsIdx $d (ix2 p c) ((contrEquiv1 $d $K rfl rfl).symm k) 1).val = c.val
    unfold DotDims.rhsIdx
    rw [dif_neg (by decide), dif_pos (by decide)]
    rfl))

/-! ## Step lemmas: from the operand's row to the result's row -/

/-- A matrix product into the zero accumulator, at `(p, c)`, given the operand's row `p` and the weight's entries. -/
theorem kmm_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (c : Fin N) :
    matmul d none a w (constant ⟨2, ![R, N]⟩ .f32 0x00000000#32) (ix2 p c) = ∑ k : Fin K, xr k * wm k c := by
  show FloatOps.matmul d none a w (constant ⟨2, ![R, N]⟩ .f32 0x00000000#32) (ix2 p c) = _
  rw [Ideal.matmul_constant_zero_apply, contr_sum d hr hs hl hrr]
  exact Finset.sum_congr rfl fun k _ => by rw [ha k, hw k c]

/-- A one-row bias `[1, N]` cast to itself and broadcast over the rows, at `(p, c)`. -/
theorem kbias_row {R N : ℕ} (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (p : Fin R) (c : Fin N) :
    broadcastTo ⟨2, ![R, N]⟩ (shapeCast ⟨2, ![1, N]⟩ v hc) hb (ix2 p c) = v (ix2 (0 : Fin 1) c) := by
  rw [shapeCast_self, broadcastTo_1b_ab_apply]

/-- A dense layer (product into the zero accumulator plus the one-row bias), at `(p, c)`. -/
theorem klayer_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (c : Fin N) :
    addf (matmul d none a w (constant ⟨2, ![R, N]⟩ .f32 0x00000000#32))
        (broadcastTo ⟨2, ![R, N]⟩ (shapeCast ⟨2, ![1, N]⟩ v hc) hb) (ix2 p c)
      = layer xr wm (fun j => v (ix2 (0 : Fin 1) j)) c := by
  show matmul d none a w (constant ⟨2, ![R, N]⟩ .f32 0x00000000#32) (ix2 p c)
      + broadcastTo ⟨2, ![R, N]⟩ (shapeCast ⟨2, ![1, N]⟩ v hc) hb (ix2 p c) = _
  rw [kmm_row d hr hs hl hrr a w p xr ha wm hw c, kbias_row v hc hb p c]
  rfl

/-- The same followed by the rectifier. -/
theorem klayer_relu_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (c : Fin N) :
    maximumf (addf (matmul d none a w (constant ⟨2, ![R, N]⟩ .f32 0x00000000#32))
        (broadcastTo ⟨2, ![R, N]⟩ (shapeCast ⟨2, ![1, N]⟩ v hc) hb))
        (broadcast ⟨2, ![R, N]⟩ (Scalar.ofBits (F := Ideal) .f32 0x00000000#32)) (ix2 p c)
      = act zf (layer xr wm (fun j => v (ix2 (0 : Fin 1) j))) c :=
  congrArg (fun y => max y zf) (klayer_row d hr hs hl hrr a w p xr ha wm hw v hc hb c)

/-- A weight behind a cast to its own shape reads as itself. -/
theorem self_cast {K N : ℕ} {φ : FTy} (w : FVec Ideal ⟨2, ![K, N]⟩ φ) (h : (⟨2, ![K, N]⟩ : Shape).ShapeCasts ⟨2, ![K, N]⟩)
    (k : Fin K) (j : Fin N) : shapeCast ⟨2, ![K, N]⟩ w h (ix2 k j) = w (ix2 k j) :=
  congrFun (shapeCast_self w h) _

/-! ## The host's spellings -/

/-- A `dot_general`, at `(p, c)`, given the operand's row `p` and the weight's entries. -/
theorem hmm_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (c : Fin N) :
    Host.dotGeneral d none a w (ix2 p c) = ∑ k : Fin K, xr k * w (ix2 k c) := by
  simp only [Host.dotGeneral]
  rw [Ideal.dotGeneral_apply, contr_sum d hr hs hl hrr]
  exact Finset.sum_congr rfl fun k _ => by rw [ha k]

/-- The host's dense layer, at `(p, c)`. -/
theorem hlayer_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (c : Fin N) :
    addf (Host.dotGeneral d none a w)
        (broadcastInDim ⟨2, ![R, N]⟩ ![0, 1] h2 (broadcastInDim ⟨2, ![1, N]⟩ ![1] h1 b)) (ix2 p c)
      = layer xr (fun k j => w (ix2 k j)) (fun j => b (ix1 j)) c := by
  rw [hlayer_apply d hr hs hl hrr none a w b h1 h2 p c, show (fun k => a (ix2 p k)) = xr from funext ha]

/-- A constant broadcast from a scalar reads the constant's value everywhere. -/
theorem hconst {s : Shape} {φ : FTy} (w : BitVec φ.bits) (h : (⟨0, ![]⟩ : Shape).BroadcastsInDim s ![]) (i : s.Idx) :
    broadcastInDim s ![] h (constant (F := Ideal) ⟨0, ![]⟩ φ w) i = Ideal.ofBits φ w := by
  rw [broadcastInDim_apply _ h _ i ix0 (fun a => a.elim0)]
  rfl

/-- The host's rectifier at an index. -/
theorem hrelu {s : Shape} (y : FVec Ideal s .f32) (h : (⟨0, ![]⟩ : Shape).BroadcastsInDim s ![]) (i : s.Idx) :
    maximumf y (broadcastInDim s ![] h (constant (F := Ideal) ⟨0, ![]⟩ .f32 0x00000000#32)) i = max (y i) zf :=
  congrFun (hact y h) i

/-- The host's dense layer followed by its rectifier. -/
theorem hlayer_relu_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![]) (c : Fin N) :
    maximumf (addf (Host.dotGeneral d none a w)
        (broadcastInDim ⟨2, ![R, N]⟩ ![0, 1] h2 (broadcastInDim ⟨2, ![1, N]⟩ ![1] h1 b)))
        (broadcastInDim ⟨2, ![R, N]⟩ ![] h0 (constant (F := Ideal) ⟨0, ![]⟩ .f32 0x00000000#32)) (ix2 p c)
      = act zf (layer xr (fun k j => w (ix2 k j)) (fun j => b (ix1 j))) c :=
  (hrelu _ h0 (ix2 p c)).trans (congrArg (fun y => max y zf) (hlayer_row d hr hs hl hrr a w p xr ha b h1 h2 c))

variable {α : Type}

/-- A column `[R, 1]` broadcast across `N` columns. -/
theorem hbcast_col {R N : ℕ} (v : (⟨2, ![R, 1]⟩ : Shape).Idx → α) (h : (⟨2, ![R, 1]⟩ : Shape).BroadcastsInDim ⟨2, ![R, N]⟩ ![0, 1])
    (r : Fin R) (k : Fin N) : broadcastInDim ⟨2, ![R, N]⟩ ![0, 1] h v (ix2 r k) = v (ix2 r (0 : Fin 1)) :=
  broadcastInDim_apply _ h v (ix2 r k) (ix2 r (0 : Fin 1)) fun ax => by
    match ax with
    | ⟨0, _⟩ =>
      show r.val = if R = 1 then 0 else r.val
      split
      · have := r.isLt; omega
      · rfl
    | ⟨1, _⟩ => rfl

/-- A vector `[A]` as a column `[A, 1]`. -/
theorem hbcast_vec_col {A : ℕ} (v : (⟨1, ![A]⟩ : Shape).Idx → α) (h : (⟨1, ![A]⟩ : Shape).BroadcastsInDim ⟨2, ![A, 1]⟩ ![0])
    (b : Fin A) (u : Fin 1) : broadcastInDim ⟨2, ![A, 1]⟩ ![0] h v (ix2 b u) = v (ix1 b) :=
  broadcastInDim_apply _ h v (ix2 b u) (ix1 b) fun ax => by
    match ax with
    | ⟨0, _⟩ =>
      show b.val = if A = 1 then 0 else b.val
      split
      · have := b.isLt; omega
      · rfl

/-- A per-table row `[A, C]` with a unit row axis inserted, `[A, 1, C]`. -/
theorem hbcast_ac_a1c {A C : ℕ} (v : (⟨2, ![A, C]⟩ : Shape).Idx → α)
    (h : (⟨2, ![A, C]⟩ : Shape).BroadcastsInDim ⟨3, ![A, 1, C]⟩ ![0, 2]) (b : Fin A) (u : Fin 1) (k : Fin C) :
    broadcastInDim ⟨3, ![A, 1, C]⟩ ![0, 2] h v (ix3 b u k) = v (ix2 b k) :=
  broadcastInDim_apply _ h v (ix3 b u k) (ix2 b k) fun ax => by
    match ax with
    | ⟨0, _⟩ =>
      show b.val = if A = 1 then 0 else b.val
      split
      · have := b.isLt; omega
      · rfl
    | ⟨1, _⟩ =>
      show k.val = if C = 1 then 0 else k.val
      split
      · have := k.isLt; omega
      · rfl

/-- `[A, 1, C]` repeated over a table's `B` rows. -/
theorem hbcast_a1c_abc {A B C : ℕ} (v : (⟨3, ![A, 1, C]⟩ : Shape).Idx → α)
    (h : (⟨3, ![A, 1, C]⟩ : Shape).BroadcastsInDim ⟨3, ![A, B, C]⟩ ![0, 1, 2]) (b : Fin A) (n : Fin B) (k : Fin C) :
    broadcastInDim ⟨3, ![A, B, C]⟩ ![0, 1, 2] h v (ix3 b n k) = v (ix3 b (0 : Fin 1) k) :=
  broadcastInDim_apply _ h v (ix3 b n k) (ix3 b (0 : Fin 1) k) fun ax => by
    match ax with
    | ⟨0, _⟩ =>
      show b.val = if A = 1 then 0 else b.val
      split
      · have := b.isLt; omega
      · rfl
    | ⟨1, _⟩ => rfl
    | ⟨2, _⟩ =>
      show k.val = if C = 1 then 0 else k.val
      split
      · have := k.isLt; omega
      · rfl

/-- A per-row number `[A, B]` with a unit column axis appended, `[A, B, 1]`. -/
theorem hbcast_ab_ab1 {A B : ℕ} (v : (⟨2, ![A, B]⟩ : Shape).Idx → α)
    (h : (⟨2, ![A, B]⟩ : Shape).BroadcastsInDim ⟨3, ![A, B, 1]⟩ ![0, 1]) (b : Fin A) (n : Fin B) (u : Fin 1) :
    broadcastInDim ⟨3, ![A, B, 1]⟩ ![0, 1] h v (ix3 b n u) = v (ix2 b n) :=
  broadcastInDim_apply _ h v (ix3 b n u) (ix2 b n) fun ax => by
    match ax with
    | ⟨0, _⟩ =>
      show b.val = if A = 1 then 0 else b.val
      split
      · have := b.isLt; omega
      · rfl
    | ⟨1, _⟩ =>
      show n.val = if B = 1 then 0 else n.val
      split
      · have := n.isLt; omega
      · rfl

/-- `[A, B, 1]` repeated across `C` columns. -/
theorem hbcast_ab1_abc {A B C : ℕ} (v : (⟨3, ![A, B, 1]⟩ : Shape).Idx → α)
    (h : (⟨3, ![A, B, 1]⟩ : Shape).BroadcastsInDim ⟨3, ![A, B, C]⟩ ![0, 1, 2]) (b : Fin A) (n : Fin B) (k : Fin C) :
    broadcastInDim ⟨3, ![A, B, C]⟩ ![0, 1, 2] h v (ix3 b n k) = v (ix3 b n (0 : Fin 1)) :=
  broadcastInDim_apply _ h v (ix3 b n k) (ix3 b n (0 : Fin 1)) fun ax => by
    match ax with
    | ⟨0, _⟩ =>
      show b.val = if A = 1 then 0 else b.val
      split
      · have := b.isLt; omega
      · rfl
    | ⟨1, _⟩ =>
      show n.val = if B = 1 then 0 else n.val
      split
      · have := n.isLt; omega
      · rfl
    | ⟨2, _⟩ => rfl

end Cert.DenseStep

end
-- ==== Proof.LibColumn.lean ====
/-
  Two layout operations read at an index, for a per-row quantity kept as a column (a sum over the last axis with the
  reduced axis kept as a unit axis): the cast of a vector of `a` entries to an `a`-by-`1` column, and the broadcast of
  such a column across `b` columns. Both are stated over coordinates of literal extents.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to `[a, 1]` reads, at `(i, u)`, the operand at `i`, whatever the unit coordinate `u`: the two
    indices have the same row-major position, `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.LibGraphLayers.lean ====
/-
  THE TWO LAYER SHAPES OF A MESSAGE-PASSING NETWORK, at the ideal values.

  A graph-convolution step combines, for every node (row) `p`, the sum `A p` of its neighbours' features with its own
  features `H p` through two weight matrices and a bias, and rectifies:
      `(p, c) ↦ max (((∑ k, A (p, k) · Wr (k, c)) + b c) + ∑ k, H (p, k) · Wo (k, c)) z`            (`gconv`).
  The read-out divides each graph's summed features by the larger of its node count and one, multiplies by a weight matrix
  and adds a bias:
      `(g, c) ↦ (∑ k, (S (g, k) / max (C g) one) · W (k, c)) + b c`                                     (`poolfc`).
  Each is read here in two spellings.  The host's: `dot_general`s, the bias broadcast to one row and then over the rows, the
  level broadcast from a scalar; the count's maximum taken on the vector of counts and then broadcast to a column and
  across the columns.  The vector unit's, on a block of rows: matrix products into a zero accumulator added FIRST, the bias
  (one row) added after them; the count arriving already broadcast across the columns.  The two spellings of the
  convolution differ by the order of the three summands, `(a + b) + c = (a + c) + b`, which holds of all extended reals;
  nothing has to be finite.  The products are compared term by term.
-/
import proofs.«178044_j47218870452627_2_alg».proof.Proof.LibDenseStep
import proofs.«178044_j47218870452627_2_alg».proof.Proof.LibColumn

noncomputable section

open scoped BigOperators

namespace Cert.GraphLayers

open Idealize.ShloMosaic Idealize.ShloMosaic.ValueIdx Cert.DenseRow Cert.RowBias Cert.DenseStep

/-- The value of the word of `1.0`: the level a node count is raised to.  Never evaluated. -/
def onef : EReal := Ideal.ofBits .f32 0x3F800000#32

/-! ## The graph-convolution step -/

/-- Neighbour sums times `Wr`, plus the bias, plus own features times `Wo`, rectified at the level `z`. -/
def gconv {R K N : ℕ} (z : EReal) (A H : (⟨2, ![R, K]⟩ : Shape).Idx → EReal) (Wr Wo : (⟨2, ![K, N]⟩ : Shape).Idx → EReal)
    (b : (⟨1, ![N]⟩ : Shape).Idx → EReal) : (⟨2, ![R, N]⟩ : Shape).Idx → EReal :=
  fun i => max (((∑ k : Fin K, A (ix2 (i 0) k) * Wr (ix2 k (i 1))) + b (ix1 (i 1)))
    + ∑ k : Fin K, H (ix2 (i 0) k) * Wo (ix2 k (i 1))) z

theorem gconv_apply {R K N : ℕ} (z : EReal) (A H : (⟨2, ![R, K]⟩ : Shape).Idx → EReal) (Wr Wo : (⟨2, ![K, N]⟩ : Shape).Idx → EReal)
    (b : (⟨1, ![N]⟩ : Shape).Idx → EReal) (p : Fin R) (c : Fin N) :
    gconv z A H Wr Wo b (ix2 p c)
      = max (((∑ k : Fin K, A (ix2 p k) * Wr (ix2 k c)) + b (ix1 c)) + ∑ k : Fin K, H (ix2 p k) * Wo (ix2 k c)) z := rfl

/-- The host's spelling: `(A·Wr + bias) + H·Wo`, then the larger of it and the zero constant. -/
theorem host_gconv {R K N : ℕ} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (A H : FVec Ideal ⟨2, ![R, K]⟩ .f32) (Wr Wo : FVec Ideal ⟨2, ![K, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![]) :
    maximumf (addf (addf (Host.dotGeneral d none A Wr)
          (broadcastInDim ⟨2, ![R, N]⟩ ![0, 1] h2 (broadcastInDim ⟨2, ![1, N]⟩ ![1] h1 b)))
        (Host.dotGeneral d none H Wo))
        (broadcastInDim ⟨2, ![R, N]⟩ ![] h0 (constant (F := Ideal) ⟨0, ![]⟩ .f32 0x00000000#32))
      = gconv zf A H Wr Wo b := by
  funext i
  obtain ⟨p, c, rfl⟩ : ∃ (p : Fin R) (c : Fin N), i = ix2 p c := ⟨i 0, i 1, eq_ix2 i⟩
  refine (hrelu _ h0 (ix2 p c)).trans ?_
  show max (addf (Host.dotGeneral d none A Wr)
        (broadcastInDim ⟨2, ![R, N]⟩ ![0, 1] h2 (broadcastInDim ⟨2, ![1, N]⟩ ![1] h1 b)) (ix2 p c)
      + Host.dotGeneral d none H Wo (ix2 p c)) zf = _
  rw [hlayer_row d hr hs hl hrr A Wr p (fun k => A (ix2 p k)) (fun _ => rfl) b h1 h2 c,
    hmm_row d hr hs hl hrr H Wo p (fun k => H (ix2 p k)) (fun _ => rfl) c]
  rfl

/-- The vector unit's spelling on a block of rows, at the block's index `y`: the two products first, the one-row bias
    after them, the zero word splat, a change of format at each end.  It is the step of the whole arrays at the array's
    index `i`, when `i` is `y` moved down by `off` rows and the blocks `a`, `h` are `A`, `H` read `off` rows down. -/
theorem kern_gconv_at {R R' K N : ℕ} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a h : FVec Ideal ⟨2, ![R, K]⟩ .bf16) (wr wo : FVec Ideal ⟨2, ![K, N]⟩ .f32) (v : FVec Ideal ⟨2, ![1, N]⟩ .f32)
    (hca : (⟨2, ![R, K]⟩ : Shape).ShapeCasts ⟨2, ![R, K]⟩) (hcv : (⟨2, ![1, N]⟩ : Shape).ShapeCasts ⟨2, ![1, N]⟩)
    (hb : (⟨2, ![1, N]⟩ : Shape).Broadcasts ⟨2, ![R, N]⟩) (hlt : FTy.bits .bf16 < FTy.bits .f32)
    (A H : (⟨2, ![R', K]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (w : (⟨2, ![R', K]⟩ : Shape).Idx),
      (w 0).val = off + (u 0).val → (w 1).val = (u 1).val → (a u : EReal) = A w)
    (hh : ∀ (u : (⟨2, ![R, K]⟩ : Shape).Idx) (w : (⟨2, ![R', K]⟩ : Shape).Idx),
      (w 0).val = off + (u 0).val → (w 1).val = (u 1).val → (h u : EReal) = H w) :
    (truncf .bf16 (maximumf (addf (addf
          (matmul d none (shapeCast ⟨2, ![R, K]⟩ a hca) (truncf .bf16 wr hlt) (constant ⟨2, ![R, N]⟩ .f32 0x00000000#32))
          (matmul d none (shapeCast ⟨2, ![R, K]⟩ h hca) (truncf .bf16 wo hlt) (constant ⟨2, ![R, N]⟩ .f32 0x00000000#32)))
          (broadcastTo ⟨2, ![R, N]⟩ (shapeCast ⟨2, ![1, N]⟩ v hcv) hb))
        (broadcast ⟨2, ![R, N]⟩ (Scalar.ofBits (F := Ideal) .f32 0x00000000#32))) hlt y : EReal)
      = gconv zf A H wr wo (unrow v) i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [gconv_apply]
  show max ((matmul d none (shapeCast ⟨2, ![R, K]⟩ a hca) (truncf .bf16 wr hlt) (constant ⟨2, ![R, N]⟩ .f32 0x00000000#32) (ix2 p c')
        + matmul d none (shapeCast ⟨2, ![R, K]⟩ h hca) (truncf .bf16 wo hlt) (constant ⟨2, ![R, N]⟩ .f32 0x00000000#32) (ix2 p c'))
      + broadcastTo ⟨2, ![R, N]⟩ (shapeCast ⟨2, ![1, N]⟩ v hcv) hb (ix2 p c')) zf = _
  rw [kmm_row d hr hs hl hrr (shapeCast ⟨2, ![R, K]⟩ a hca) (truncf .bf16 wr hlt) p (fun k => A (ix2 p' k))
      (fun k => by rw [shapeCast_self]; exact ha (ix2 p k) (ix2 p' k) hi0 rfl) (fun k j => wr (ix2 k j)) (fun _ _ => rfl) c',
    kmm_row d hr hs hl hrr (shapeCast ⟨2, ![R, K]⟩ h hca) (truncf .bf16 wo hlt) p (fun k => H (ix2 p' k))
      (fun k => by rw [shapeCast_self]; exact hh (ix2 p k) (ix2 p' k) hi0 rfl) (fun k j => wo (ix2 k j)) (fun _ _ => rfl) c',
    kbias_row v hcv hb p c', unrow_apply, add_right_comm]

/-! ## The read-out -/

/-- Each graph's summed features divided by the larger of its node count and `one`, times `W`, plus the bias. -/
def poolfc {G H O : ℕ} (one : EReal) (S : (⟨2, ![G, H]⟩ : Shape).Idx → EReal) (C : (⟨1, ![G]⟩ : Shape).Idx → EReal)
    (W : (⟨2, ![H, O]⟩ : Shape).Idx → EReal) (b : (⟨1, ![O]⟩ : Shape).Idx → EReal) : (⟨2, ![G, O]⟩ : Shape).Idx → EReal :=
  fun i => (∑ k : Fin H, Ideal.div (S (ix2 (i 0) k)) (max (C (ix1 (i 0))) one) * W (ix2 k (i 1))) + b (ix1 (i 1))

theorem poolfc_apply {G H O : ℕ} (one : EReal) (S : (⟨2, ![G, H]⟩ : Shape).Idx → EReal) (C : (⟨1, ![G]⟩ : Shape).Idx → EReal)
    (W : (⟨2, ![H, O]⟩ : Shape).Idx → EReal) (b : (⟨1, ![O]⟩ : Shape).Idx → EReal) (g : Fin G) (c : Fin O) :
    poolfc one S C W b (ix2 g c)
      = (∑ k : Fin H, Ideal.div (S (ix2 g k)) (max (C (ix1 g)) one) * W (ix2 k c)) + b (ix1 c) := rfl

/-- The host's spelling: the count's maximum with the constant one taken on the vector of counts, then broadcast to a
    column and across the columns; the quotient; `dot_general`; the bias broadcast to one row and over the rows. -/
theorem host_poolfc {G H O : ℕ} (d : DotDims ⟨2, ![G, H]⟩ ⟨2, ![H, O]⟩ ⟨2, ![G, O]⟩)
    (hr : d.contr.rank = 1) (hs : d.contr.size ⟨0, by omega⟩ = H)
    (hl : ∀ (p : Fin G) (c : Fin O) (k : Fin H), d.lhsIdx (ix2 p c) ((contrEquiv1 d H hr hs).symm k) = ix2 p k)
    (hrr : ∀ (p : Fin G) (c : Fin O) (k : Fin H), d.rhsIdx (ix2 p c) ((contrEquiv1 d H hr hs).symm k) = ix2 k c)
    (S : FVec Ideal ⟨2, ![G, H]⟩ .f32) (C : FVec Ideal ⟨1, ![G]⟩ .f32) (W : FVec Ideal ⟨2, ![H, O]⟩ .f32) (b : FVec Ideal ⟨1, ![O]⟩ .f32)
    (hc1 : (⟨0, ![]⟩ : Shape).BroadcastsInDim ⟨1, ![G]⟩ ![])
    (hcc : (⟨1, ![G]⟩ : Shape).BroadcastsInDim ⟨2, ![G, 1]⟩ ![0]) (hcb : (⟨2, ![G, 1]⟩ : Shape).BroadcastsInDim ⟨2, ![G, H]⟩ ![0, 1])
    (h1 : (⟨1, ![O]⟩ : Shape).BroadcastsInDim ⟨2, ![1, O]⟩ ![1]) (h2 : (⟨2, ![1, O]⟩ : Shape).BroadcastsInDim ⟨2, ![G, O]⟩ ![0, 1]) :
    addf (Host.dotGeneral d none
          (Host.divf S (broadcastInDim ⟨2, ![G, H]⟩ ![0, 1] hcb (broadcastInDim ⟨2, ![G, 1]⟩ ![0] hcc
            (maximumf C (broadcastInDim ⟨1, ![G]⟩ ![] hc1 (constant (F := Ideal) ⟨0, ![]⟩ .f32 0x3F800000#32)))))) W)
        (broadcastInDim ⟨2, ![G, O]⟩ ![0, 1] h2 (broadcastInDim ⟨2, ![1, O]⟩ ![1] h1 b))
      = poolfc onef S C W b := by
  funext i
  obtain ⟨g, c, rfl⟩ : ∃ (g : Fin G) (c : Fin O), i = ix2 g c := ⟨i 0, i 1, eq_ix2 i⟩
  rw [hlayer_row d hr hs hl hrr _ W g (fun k => Ideal.div (S (ix2 g k)) (max (C (ix1 g)) onef)) (fun k => ?_) b h1 h2 c]
  · rfl
  · show Ideal.div (S (ix2 g k)) (broadcastInDim ⟨2, ![G, H]⟩ ![0, 1] hcb (broadcastInDim ⟨2, ![G, 1]⟩ ![0] hcc
        (maximumf C (broadcastInDim ⟨1, ![G]⟩ ![] hc1 (constant (F := Ideal) ⟨0, ![]⟩ .f32 0x3F800000#32)))) (ix2 g k)) = _
    rw [hbcast_col, hbcast_vec_col]
    show Ideal.div (S (ix2 g k)) (max (C (ix1 g))
      (broadcastInDim ⟨1, ![G]⟩ ![] hc1 (constant (F := Ideal) ⟨0, ![]⟩ .f32 0x3F800000#32) (ix1 g))) = _
    rw [hconst]
    rfl

/-- The vector unit's spelling, on the whole arrays: the count arrives already broadcast across the columns (`cb`, whose
    row `g` is `C g` everywhere), its maximum with the word of one splat is taken there; the quotient; a change of format;
    the product into a zero accumulator; the one-row bias. -/
theorem kern_poolfc {G H O : ℕ} (d : DotDims ⟨2, ![G, H]⟩ ⟨2, ![H, O]⟩ ⟨2, ![G, O]⟩)
    (hr : d.contr.rank = 1) (hs : d.contr.size ⟨0, by omega⟩ = H)
    (hl : ∀ (p : Fin G) (c : Fin O) (k : Fin H), d.lhsIdx (ix2 p c) ((contrEquiv1 d H hr hs).symm k) = ix2 p k)
    (hrr : ∀ (p : Fin G) (c : Fin O) (k : Fin H), d.rhsIdx (ix2 p c) ((contrEquiv1 d H hr hs).symm k) = ix2 k c)
    (s cb : FVec Ideal ⟨2, ![G, H]⟩ .f32) (w : FVec Ideal ⟨2, ![H, O]⟩ .f32) (v : FVec Ideal ⟨2, ![1, O]⟩ .f32)
    (C : (⟨1, ![G]⟩ : Shape).Idx → EReal) (hC : ∀ (g : Fin G) (k : Fin H), (cb (ix2 g k) : EReal) = C (ix1 g))
    (hcs : (⟨2, ![G, H]⟩ : Shape).ShapeCasts ⟨2, ![G, H]⟩) (hcv : (⟨2, ![1, O]⟩ : Shape).ShapeCasts ⟨2, ![1, O]⟩)
    (hb : (⟨2, ![1, O]⟩ : Shape).Broadcasts ⟨2, ![G, O]⟩) (hlt : FTy.bits .bf16 < FTy.bits .f32) :
    addf (matmul d none
          (truncf .bf16 (divf (shapeCast ⟨2, ![G, H]⟩ s hcs)
            (maximumf (shapeCast ⟨2, ![G, H]⟩ cb hcs) (broadcast ⟨2, ![G, H]⟩ (Scalar.ofBits (F := Ideal) .f32 0x3F800000#32)))) hlt)
          (truncf .bf16 w hlt) (constant ⟨2, ![G, O]⟩ .f32 0x00000000#32))
        (broadcastTo ⟨2, ![G, O]⟩ (shapeCast ⟨2, ![1, O]⟩ v hcv) hb)
      = poolfc onef s C w (unrow v) := by
  funext i
  obtain ⟨g, c, rfl⟩ : ∃ (g : Fin G) (c : Fin O), i = ix2 g c := ⟨i 0, i 1, eq_ix2 i⟩
  rw [klayer_row d hr hs hl hrr _ (truncf .bf16 w hlt) g (fun k => Ideal.div (s (ix2 g k)) (max (C (ix1 g)) onef)) (fun k => ?_)
    (fun k j => w (ix2 k j)) (fun _ _ => rfl) v hcv hb c]
  · rfl
  · show Ideal.div (shapeCast ⟨2, ![G, H]⟩ s hcs (ix2 g k)) (max (shapeCast ⟨2, ![G, H]⟩ cb hcs (ix2 g k)) onef) = _
    rw [shapeCast_self, shapeCast_self, hC g k]

end Cert.GraphLayers

end
-- ==== Proof.ReadOut.lean ====
/-
  THE READ-OUT REGION'S OUTPUT ARRAY, at the ideal values, as one function of the arrays the region finds.

  The region has one grid point: every window's block is its whole array.  The body divides the summed features by the larger
  of the node count and one, multiplies by the classifier's weights and adds its bias.  The node count arrives as a `[2048, 128]`
  array; the result is the read-out of the vector of counts `C` whenever that array's row `g` is `C g` in every column
  (`hC`), which is how the host builds it.  Stated for ANY contents `V` the region is entered with.
-/
import proofs.«178044_j47218870452627_2_alg».proof.Proof.Gen.KernelIdeal.Frame
import proofs.«178044_j47218870452627_2_alg».proof.Proof.LibGraphLayers

set_option maxRecDepth 16384

noncomputable section

namespace Cert.KernelIdeal.ReadOut

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.GraphLayers Cert.RowBias Cert.DenseStep

variable (V : (c : Dev nD) → (b : Ref sig .tc) → Buf (Elt Ideal) ((c : Thread nD τ).loc b))

theorem hz : (![0, 0] : Fin 2 → Nat) = fun _ => 0 := funext fun a => by fin_cases a <;> rfl

/-! ## The contraction: which entries of the operands an output entry reads -/

theorem d_lhs : ∀ (p : Fin 2048) (c : Fin 2) (k : Fin 128),
    DotDims.lhsIdx dot_S2048x128_S128x2_S2048x2_1_0_0_1_n_n (ix2 p c) ((contrEquiv1 dot_S2048x128_S128x2_S2048x2_1_0_0_1_n_n 128 rfl rfl).symm k) = ix2 p k := by
  plain_lhs dot_S2048x128_S128x2_S2048x2_1_0_0_1_n_n 128

theorem d_rhs : ∀ (p : Fin 2048) (c : Fin 2) (k : Fin 128),
    DotDims.rhsIdx dot_S2048x128_S128x2_S2048x2_1_0_0_1_n_n (ix2 p c) ((contrEquiv1 dot_S2048x128_S128x2_S2048x2_1_0_0_1_n_n 128 rfl rfl).symm k) = ix2 k c := by
  plain_rhs dot_S2048x128_S128x2_S2048x2_1_0_0_1_n_n 128

/-! ## The body's arithmetic at an index -/

/-- What the body stores at `y` is the read-out of the sums `S`, the counts `C`, the weights `W` and the bias `bv` there,
    when the loaded blocks are those arrays and the count block's row `g` is `C g` in every column. -/
theorem pay_at (x0 x1 : FVec Ideal S2048x128 .f32) (x8 : FVec Ideal S128x2 .f32) (x11 : FVec Ideal S1x2 .f32)
    (S : S2048x128.Idx → EReal) (C : S2048.Idx → EReal) (W : S128x2.Idx → EReal) (bv : S2.Idx → EReal)
    (y i : S2048x2.Idx) (hi : i = y)
    (hs : ∀ u, (x0 u : EReal) = S u) (hc : ∀ (g : Fin 2048) (k : Fin 128), (x1 (ix2 g k) : EReal) = C (ix1 g))
    (hw : ∀ u, (x8 u : EReal) = W u) (hbv : ∀ j : Fin 2, (x11 (ix2 (0 : Fin 1) j) : EReal) = bv (ix1 j)) :
    (k2_pay1 (F := Ideal) x0 x1 x8 x11 y : EReal) = poolfc onef S C W bv i := by
  have e0 : x0 = S := funext hs
  have e8 : x8 = W := funext hw
  have e11 : unrow x11 = bv := funext fun j => by rw [eq_ix1 j]; exact hbv (j 0)
  subst e0 e8 e11 hi
  unfold k2_pay1
  exact congrFun (kern_poolfc dot_S2048x128_S128x2_S2048x2_1_0_0_1_n_n rfl rfl d_lhs d_rhs x0 x1 x8 x11 C hc
    shapeCasts_S2048x128_S2048x128 shapeCasts_S1x2_S1x2 broadcasts_S1x2_S2048x2 bitsLt_bf16_f32) i

/-! ## The windows' block indices, decided once over the grid -/

theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem idx_onto : ∃ t : Fin cfg2.N, win2_4.index t = ![0, 0] :=
  (by decide +kernel : ∃ t : Fin grid2.N, win2_4.index t = ![0, 0])

/-! ## What the point writes back -/

theorem flushed_eq (c : Dev nD) (C : S2048.Idx → EReal)
    (hC : ∀ (g : Fin 2048) (k : Fin 128), (V c main_v41 (ix2 g k) : EReal) = C (ix1 g)) (t : Fin cfg2.N) :
    (dat2 V c).flushed 4 t = ((cfg2.win 4).blk t).view.read (Elt Ideal)
      (poolfc onef (V c main_v35) C (V c main_arg9) (unrow (V c main_v42))) := by
  show (cfg2.win 4).cut (grid2.coords t) ((dat2 V c).after 4 t) = _
  rw [after2_4]
  unfold out2_4
  rw [View.canon_unit_zero hz]
  simp only [View.ld_unit_zero (S := S2048x128) hz, View.ld_unit_zero (S := S128x2) hz, View.ld_unit_zero (S := S1x2) hz]
  obtain ⟨e00, e01, e10, e11, e20, e21, e30, e31, e40, e41⟩ := idx_facts t
  funext j
  show (k2_pay1 (F := Ideal) (iblk2 V c 0 t) (iblk2 V c 1 t) (iblk2 V c 2 t) (iblk2 V c 3 t) j : EReal)
    = poolfc onef (V c main_v35) C (V c main_arg9) (unrow (V c main_v42)) (((cfg2.win 4).blk t).view.emb j)
  refine pay_at (iblk2 V c 0 t) (iblk2 V c 1 t) (iblk2 V c 2 t) (iblk2 V c 3 t)
    (V c main_v35) C (V c main_arg9) (unrow (V c main_v42)) j (((cfg2.win 4).blk t).view.emb j) ?_ ?_ ?_ ?_ ?_
  · funext a; apply Fin.ext
    match a with
    | ⟨0, _⟩ => show win2_4.index t (0 : Fin 2) * 2048 + 1 * (j 0).val = (j 0).val; omega
    | ⟨1, _⟩ => show win2_4.index t (1 : Fin 2) * 2 + 1 * (j 1).val = (j 1).val; omega
  · intro u
    show V c main_v35 (((cfg2.win 0).blk t).view.emb u) = V c main_v35 u
    have e : ((cfg2.win 0).blk t).view.emb u = u := by
      funext a; apply Fin.ext
      match a with
      | ⟨0, _⟩ => show win2_0.index t (0 : Fin 2) * 2048 + 1 * (u 0).val = (u 0).val; omega
      | ⟨1, _⟩ => show win2_0.index t (1 : Fin 2) * 128 + 1 * (u 1).val = (u 1).val; omega
    rw [e]
  · intro g k
    show V c main_v41 (((cfg2.win 1).blk t).view.emb (ix2 g k)) = C (ix1 g)
    have e : ((cfg2.win 1).blk t).view.emb (ix2 g k) = ix2 g k := by
      funext a; apply Fin.ext
      match a with
      | ⟨0, _⟩ => show win2_1.index t (0 : Fin 2) * 2048 + 1 * g.val = g.val; omega
      | ⟨1, _⟩ => show win2_1.index t (1 : Fin 2) * 128 + 1 * k.val = k.val; omega
    rw [e]
    exact hC g k
  · intro u
    show V c main_arg9 (((cfg2.win 2).blk t).view.emb u) = V c main_arg9 u
    have e : ((cfg2.win 2).blk t).view.emb u = u := by
      funext a; apply Fin.ext
      match a with
      | ⟨0, _⟩ => show win2_2.index t (0 : Fin 2) * 128 + 1 * (u 0).val = (u 0).val; omega
      | ⟨1, _⟩ => show win2_2.index t (1 : Fin 2) * 2 + 1 * (u 1).val = (u 1).val; omega
    rw [e]
  · intro k
    show V c main_v42 (((cfg2.win 3).blk t).view.emb (ix2 (0 : Fin 1) k)) = V c main_v42 (ix2 (0 : Fin 1) k)
    have e : ((cfg2.win 3).blk t).view.emb (ix2 (0 : Fin 1) k) = ix2 (0 : Fin 1) k := by
      funext a; apply Fin.ext
      match a with
      | ⟨0, _⟩ => show win2_3.index t (0 : Fin 2) * 1 + 1 * 0 = 0; omega
      | ⟨1, _⟩ => show win2_3.index t (1 : Fin 2) * 2 + 1 * k.val = k.val; omega
    rw [e]

/-! ## The one block is the whole output -/

theorem mem_blk (t : Fin cfg2.N) (i : S2048x2.Idx) :
    i ∈ ((cfg2.win 4).blk t).view.set ↔ ∀ a : Fin 2, win2_4.index t a * S2048x2.size a ≤ (i a).val
      ∧ (i a).val < win2_4.index t a * S2048x2.size a + S2048x2.size a := by
  show i ∈ ((View.whole main_v43).slice (win2_4.rect t)).set ↔ _
  rw [View.set_slice_whole, Rect.mem_set_unit]
  exact Iff.rfl

theorem cover (i : S2048x2.Idx) :
    ∃ t : Fin cfg2.N, (cfg2.win 4).flush t = true ∧ i ∈ ((cfg2.win 4).blk t).view.set := by
  have hi0 : (i 0).val < 2048 := (i 0).isLt
  have hi1 : (i 1).val < 2 := (i 1).isLt
  obtain ⟨t, ht⟩ := idx_onto
  have q0 : win2_4.index t (0 : Fin 2) = 0 := congrFun ht 0
  have q1 : win2_4.index t (1 : Fin 2) = 0 := congrFun ht 1
  refine ⟨t, flush2_4 t, ?_⟩
  rw [mem_blk]
  intro a
  match a with
  | ⟨0, _⟩ =>
    show win2_4.index t (0 : Fin 2) * 2048 ≤ (i 0).val ∧ (i 0).val < win2_4.index t (0 : Fin 2) * 2048 + 2048
    omega
  | ⟨1, _⟩ =>
    show win2_4.index t (1 : Fin 2) * 2 ≤ (i 1).val ∧ (i 1).val < win2_4.index t (1 : Fin 2) * 2 + 2
    omega

/-! ## The output array after the region -/

/-- After the region the output array is the read-out of the arrays the region was entered with. -/
theorem final (c : Dev nD) (C : S2048.Idx → EReal)
    (hC : ∀ (g : Fin 2048) (k : Fin 128), (V c main_v41 (ix2 g k) : EReal) = C (ix1 g)) :
    (dat2 V c).arrAt 4 cfg2.N = poolfc onef (V c main_v35) C (V c main_arg9) (unrow (V c main_v42)) :=
  (dat2 V c).arrAt_eq_of_cover 4 _ (fun t _ => flushed_eq V c C hC t) cover

end Cert.KernelIdeal.ReadOut

end
-- ==== Proof.Conv2.lean ====
/-
  THE SECOND CONVOLUTION REGION'S OUTPUT ARRAY, at the ideal values, as one function of the arrays the region finds.

  The region runs ten grid points; point `t` reads rows `10000·t … 10000·t + 9999` of the neighbour-sum array and of the
  feature array (two windows moving together), the two weight matrices and the one-row bias whole, and writes the same rows of
  the output.  Every output row depends only on the same row of the two inputs, so block `t` of the graph-convolution step of
  the WHOLE arrays is what point `t` writes; the ten blocks tile the output's 100000 rows, so after the region the output
  array is that step of the whole arrays (`final`).  Stated for ANY contents `V` the region is entered with.
-/
import proofs.«178044_j47218870452627_2_alg».proof.Proof.Gen.KernelIdeal.Frame
import proofs.«178044_j47218870452627_2_alg».proof.Proof.LibGraphLayers

set_option maxRecDepth 16384

noncomputable section

namespace Cert.KernelIdeal.Conv2

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.GraphLayers Cert.RowBias Cert.DenseStep

variable (V : (c : Dev nD) → (b : Ref sig .tc) → Buf (Elt Ideal) ((c : Thread nD τ).loc b))

theorem hz : (![0, 0] : Fin 2 → Nat) = fun _ => 0 := funext fun a => by fin_cases a <;> rfl

/-! ## The contraction: which entries of the operands an output entry reads -/

theorem d_lhs : ∀ (p : Fin 10000) (c : Fin 128) (k : Fin 128),
    DotDims.lhsIdx dot_S10000x128_S128x128_S10000x128_1_0_0_1_n_n (ix2 p c) ((contrEquiv1 dot_S10000x128_S128x128_S10000x128_1_0_0_1_n_n 128 rfl rfl).symm k) = ix2 p k := by
  plain_lhs dot_S10000x128_S128x128_S10000x128_1_0_0_1_n_n 128

theorem d_rhs : ∀ (p : Fin 10000) (c : Fin 128) (k : Fin 128),
    DotDims.rhsIdx dot_S10000x128_S128x128_S10000x128_1_0_0_1_n_n (ix2 p c) ((contrEquiv1 dot_S10000x128_S128x128_S10000x128_1_0_0_1_n_n 128 rfl rfl).symm k) = ix2 k c := by
  plain_rhs dot_S10000x128_S128x128_S10000x128_1_0_0_1_n_n 128

/-! ## The body's arithmetic at an index of the block -/

/-- What the body stores at the block's index `y` is the convolution step of whole arrays `A`, `H` at the array's index
    `i`, when `i` is `y` moved down by `off` rows, the two row blocks are `A`, `H` read `off` rows down, and the weight
    blocks and the bias row are the whole weights and bias. -/
theorem pay_at (x0 x1 : FVec Ideal S10000x128 .bf16) (x2 x4 : FVec Ideal S128x128 .f32) (x3 : FVec Ideal S1x128 .f32)
    (A H : S100000x128.Idx → EReal) (Wr Wo : S128x128.Idx → EReal) (bv : S128.Idx → EReal) (off : ℕ)
    (y : S10000x128.Idx) (i : S100000x128.Idx)
    (hi0 : (i 0).val = off + (y 0).val) (hi1 : (i 1).val = (y 1).val)
    (ha : ∀ (u : S10000x128.Idx) (w : S100000x128.Idx), (w 0).val = off + (u 0).val → (w 1).val = (u 1).val → (x0 u : EReal) = A w)
    (hh : ∀ (u : S10000x128.Idx) (w : S100000x128.Idx), (w 0).val = off + (u 0).val → (w 1).val = (u 1).val → (x1 u : EReal) = H w)
    (hwr : ∀ u, (x2 u : EReal) = Wr u) (hwo : ∀ u, (x4 u : EReal) = Wo u)
    (hbv : ∀ j : Fin 128, (x3 (ix2 (0 : Fin 1) j) : EReal) = bv (ix1 j)) :
    (k1_pay1 (F := Ideal) x0 x1 x2 x4 x3 y : EReal) = gconv zf A H Wr Wo bv i := by
  have e2 : x2 = Wr := funext hwr
  have e4 : x4 = Wo := funext hwo
  have e3 : unrow x3 = bv := funext fun j => by rw [eq_ix1 j]; exact hbv (j 0)
  subst e2 e4 e3
  unfold k1_pay1
  exact kern_gconv_at dot_S10000x128_S128x128_S10000x128_1_0_0_1_n_n rfl rfl d_lhs d_rhs x0 x1 x2 x4 x3
    shapeCasts_S10000x128_S10000x128 shapeCasts_S1x128_S1x128 broadcasts_S1x128_S10000x128 bitsLt_bf16_f32
    A H off y i hi0 hi1 ha hh

/-! ## The windows' block indices, decided once over the grid -/

theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every one of the ten row blocks is some point's. -/
theorem idx_onto : ∀ q : Fin 10, ∃ t : Fin cfg1.N, win1_5.index t = ![q.val, 0] :=
  (by decide +kernel : ∀ q : Fin 10, ∃ t : Fin grid1.N, win1_5.index t = ![q.val, 0])

/-! ## What a point writes back -/

/-- Point `t` writes back block `t` of the convolution step of the whole arrays as the region finds them. -/
theorem flushed_eq (c : Dev nD) (t : Fin cfg1.N) :
    (dat1 V c).flushed 5 t = ((cfg1.win 5).blk t).view.read (Elt Ideal)
      (gconv zf (V c main_v29) (V c main_v17) (V c main_arg6) (V c main_arg8) (unrow (V c main_v30))) := by
  show (cfg1.win 5).cut (grid1.coords t) ((dat1 V c).after 5 t) = _
  rw [after1_5]
  unfold out1_5
  rw [View.canon_unit_zero hz]
  simp only [View.ld_unit_zero (S := S10000x128) hz, View.ld_unit_zero (S := S128x128) hz, View.ld_unit_zero (S := S1x128) hz]
  obtain ⟨e00, e01, e10, e11, e20, e21, e30, e31, e40, e41, e51, e50⟩ := idx_facts t
  funext j
  show (k1_pay1 (F := Ideal) (iblk1 V c 0 t) (iblk1 V c 1 t) (iblk1 V c 2 t) (iblk1 V c 4 t) (iblk1 V c 3 t) j : EReal)
    = gconv zf (V c main_v29) (V c main_v17) (V c main_arg6) (V c main_arg8) (unrow (V c main_v30)) (((cfg1.win 5).blk t).view.emb j)
  have hj0 : (j 0).val < 10000 := (j 0).isLt
  have hj1 : (j 1).val < 128 := (j 1).isLt
  refine pay_at (iblk1 V c 0 t) (iblk1 V c 1 t) (iblk1 V c 2 t) (iblk1 V c 4 t) (iblk1 V c 3 t)
    (V c main_v29) (V c main_v17) (V c main_arg6) (V c main_arg8) (unrow (V c main_v30)) (win1_5.index t (0 : Fin 2) * 10000)
    j (((cfg1.win 5).blk t).view.emb j) ?_ ?_ ?_ ?_ ?_ ?_ ?_
  · show win1_5.index t (0 : Fin 2) * 10000 + 1 * (j 0).val = win1_5.index t (0 : Fin 2) * 10000 + (j 0).val
    omega
  · show win1_5.index t (1 : Fin 2) * 128 + 1 * (j 1).val = (j 1).val
    omega
  · intro u w h0 h1
    have hu1 : (u 1).val < 128 := (u 1).isLt
    show V c main_v29 (((cfg1.win 0).blk t).view.emb u) = V c main_v29 w
    have e : ((cfg1.win 0).blk t).view.emb u = w := by
      funext a; apply Fin.ext
      match a with
      | ⟨0, _⟩ => show win1_0.index t (0 : Fin 2) * 10000 + 1 * (u 0).val = (w 0).val; omega
      | ⟨1, _⟩ => show win1_0.index t (1 : Fin 2) * 128 + 1 * (u 1).val = (w 1).val; omega
    rw [e]
  · intro u w h0 h1
    have hu1 : (u 1).val < 128 := (u 1).isLt
    show V c main_v17 (((cfg1.win 1).blk t).view.emb u) = V c main_v17 w
    have e : ((cfg1.win 1).blk t).view.emb u = w := by
      funext a; apply Fin.ext
      match a with
      | ⟨0, _⟩ => show win1_1.index t (0 : Fin 2) * 10000 + 1 * (u 0).val = (w 0).val; omega
      | ⟨1, _⟩ => show win1_1.index t (1 : Fin 2) * 128 + 1 * (u 1).val = (w 1).val; omega
    rw [e]
  · intro u
    show V c main_arg6 (((cfg1.win 2).blk t).view.emb u) = V c main_arg6 u
    have e : ((cfg1.win 2).blk t).view.emb u = u := by
      funext a; apply Fin.ext
      match a with
      | ⟨0, _⟩ => show win1_2.index t (0 : Fin 2) * 128 + 1 * (u 0).val = (u 0).val; omega
      | ⟨1, _⟩ => show win1_2.index t (1 : Fin 2) * 128 + 1 * (u 1).val = (u 1).val; omega
    rw [e]
  · intro u
    show V c main_arg8 (((cfg1.win 4).blk t).view.emb u) = V c main_arg8 u
    have e : ((cfg1.win 4).blk t).view.emb u = u := by
      funext a; apply Fin.ext
      match a with
      | ⟨0, _⟩ => show win1_4.index t (0 : Fin 2) * 128 + 1 * (u 0).val = (u 0).val; omega
      | ⟨1, _⟩ => show win1_4.index t (1 : Fin 2) * 128 + 1 * (u 1).val = (u 1).val; omega
    rw [e]
  · intro k
    show V c main_v30 (((cfg1.win 3).blk t).view.emb (ix2 (0 : Fin 1) k)) = V c main_v30 (ix2 (0 : Fin 1) k)
    have e : ((cfg1.win 3).blk t).view.emb (ix2 (0 : Fin 1) k) = ix2 (0 : Fin 1) k := by
      funext a; apply Fin.ext
      match a with
      | ⟨0, _⟩ => show win1_3.index t (0 : Fin 2) * 1 + 1 * 0 = 0; omega
      | ⟨1, _⟩ => show win1_3.index t (1 : Fin 2) * 128 + 1 * k.val = k.val; omega
    rw [e]

/-! ## The blocks tile the output -/

/-- An index of the output is in point `t`'s block iff each coordinate is in the block's range on its axis. -/
theorem mem_blk (t : Fin cfg1.N) (i : S100000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v31).slice (win1_5.rect t)).set ↔ _
  rw [View.set_slice_whole, Rect.mem_set_unit]
  exact Iff.rfl

/-- Row `r` of the output is in the block of the point whose block index is `r / 10000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 128 ≤ (i 1).val ∧ (i 1).val < win1_5.index t (1 : Fin 2) * 128 + 128
    omega

/-! ## The output array after the region -/

/-- After the region the output array is the convolution step of the arrays the region was entered with. -/
theorem final (c : Dev nD) :
    (dat1 V c).arrAt 5 cfg1.N
      = gconv zf (V c main_v29) (V c main_v17) (V c main_arg6) (V c main_arg8) (unrow (V c main_v30)) :=
  (dat1 V c).arrAt_eq_of_cover 5 _ (fun t _ => flushed_eq V c t) cover

end Cert.KernelIdeal.Conv2

end
-- ==== Proof.Conv1.lean ====
/-
  THE FIRST CONVOLUTION REGION'S OUTPUT ARRAY, at the ideal values, as one function of the arrays the region finds.

  The region runs ten grid points; point `t` reads rows `10000·t … 10000·t + 9999` of the neighbour-sum array and of the
  feature array (two windows moving together), the two weight matrices and the one-row bias whole, and writes the same rows of
  the output.  Every output row depends only on the same row of the two inputs, so block `t` of the graph-convolution step of
  the WHOLE arrays is what point `t` writes; the ten blocks tile the output's 100000 rows, so after the region the output
  array is that step of the whole arrays (`final`).  Stated for ANY contents `V` the region is entered with.
-/
import proofs.«178044_j47218870452627_2_alg».proof.Proof.Gen.KernelIdeal.Frame
import proofs.«178044_j47218870452627_2_alg».proof.Proof.LibGraphLayers

set_option maxRecDepth 16384

noncomputable section

namespace Cert.KernelIdeal.Conv1

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.GraphLayers Cert.RowBias Cert.DenseStep

variable (V : (c : Dev nD) → (b : Ref sig .tc) → Buf (Elt Ideal) ((c : Thread nD τ).loc b))

theorem hz : (![0, 0] : Fin 2 → Nat) = fun _ => 0 := funext fun a => by fin_cases a <;> rfl

/-! ## The contraction: which entries of the operands an output entry reads -/

theorem d_lhs : ∀ (p : Fin 10000) (c : Fin 128) (k : Fin 16),
    DotDims.lhsIdx dot_S10000x16_S16x128_S10000x128_1_0_0_1_n_n (ix2 p c) ((contrEquiv1 dot_S10000x16_S16x128_S10000x128_1_0_0_1_n_n 16 rfl rfl).symm k) = ix2 p k := by
  plain_lhs dot_S10000x16_S16x128_S10000x128_1_0_0_1_n_n 16

theorem d_rhs : ∀ (p : Fin 10000) (c : Fin 128) (k : Fin 16),
    DotDims.rhsIdx dot_S10000x16_S16x128_S10000x128_1_0_0_1_n_n (ix2 p c) ((contrEquiv1 dot_S10000x16_S16x128_S10000x128_1_0_0_1_n_n 16 rfl rfl).symm k) = ix2 k c := by
  plain_rhs dot_S10000x16_S16x128_S10000x128_1_0_0_1_n_n 16

/-! ## The body's arithmetic at an index of the block -/

/-- What the body stores at the block's index `y` is the convolution step of whole arrays `A`, `H` at the array's index
    `i`, when `i` is `y` moved down by `off` rows, the two row blocks are `A`, `H` read `off` rows down, and the weight
    blocks and the bias row are the whole weights and bias. -/
theorem pay_at (x0 x1 : FVec Ideal S10000x16 .bf16) (x2 x4 : FVec Ideal S16x128 .f32) (x3 : FVec Ideal S1x128 .f32)
    (A H : S100000x16.Idx → EReal) (Wr Wo : S16x128.Idx → EReal) (bv : S128.Idx → EReal) (off : ℕ)
    (y : S10000x128.Idx) (i : S100000x128.Idx)
    (hi0 : (i 0).val = off + (y 0).val) (hi1 : (i 1).val = (y 1).val)
    (ha : ∀ (u : S10000x16.Idx) (w : S100000x16.Idx), (w 0).val = off + (u 0).val → (w 1).val = (u 1).val → (x0 u : EReal) = A w)
    (hh : ∀ (u : S10000x16.Idx) (w : S100000x16.Idx), (w 0).val = off + (u 0).val → (w 1).val = (u 1).val → (x1 u : EReal) = H w)
    (hwr : ∀ u, (x2 u : EReal) = Wr u) (hwo : ∀ u, (x4 u : EReal) = Wo u)
    (hbv : ∀ j : Fin 128, (x3 (ix2 (0 : Fin 1) j) : EReal) = bv (ix1 j)) :
    (k0_pay1 (F := Ideal) x0 x1 x2 x4 x3 y : EReal) = gconv zf A H Wr Wo bv i := by
  have e2 : x2 = Wr := funext hwr
  have e4 : x4 = Wo := funext hwo
  have e3 : unrow x3 = bv := funext fun j => by rw [eq_ix1 j]; exact hbv (j 0)
  subst e2 e4 e3
  unfold k0_pay1
  exact kern_gconv_at dot_S10000x16_S16x128_S10000x128_1_0_0_1_n_n rfl rfl d_lhs d_rhs x0 x1 x2 x4 x3
    shapeCasts_S10000x16_S10000x16 shapeCasts_S1x128_S1x128 broadcasts_S1x128_S10000x128 bitsLt_bf16_f32
    A H off y i hi0 hi1 ha hh

/-! ## The windows' block indices, decided once over the grid -/

theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every one of the ten row blocks is some point's. -/
theorem idx_onto : ∀ q : Fin 10, ∃ t : Fin cfg0.N, win0_5.index t = ![q.val, 0] :=
  (by decide +kernel : ∀ q : Fin 10, ∃ t : Fin grid0.N, win0_5.index t = ![q.val, 0])

/-! ## What a point writes back -/

/-- Point `t` writes back block `t` of the convolution step of the whole arrays as the region finds them. -/
theorem flushed_eq (c : Dev nD) (t : Fin cfg0.N) :
    (dat0 V c).flushed 5 t = ((cfg0.win 5).blk t).view.read (Elt Ideal)
      (gconv zf (V c main_v14) (V c main_v15) (V c main_arg3) (V c main_arg5) (unrow (V c main_v16))) := by
  show (cfg0.win 5).cut (grid0.coords t) ((dat0 V c).after 5 t) = _
  rw [after0_5]
  unfold out0_5
  rw [View.canon_unit_zero hz]
  simp only [View.ld_unit_zero (S := S10000x16) hz, View.ld_unit_zero (S := S16x128) hz, View.ld_unit_zero (S := S1x128) hz]
  obtain ⟨e00, e01, e10, e11, e20, e21, e30, e31, e40, e41, e51, e50⟩ := idx_facts t
  funext j
  show (k0_pay1 (F := Ideal) (iblk0 V c 0 t) (iblk0 V c 1 t) (iblk0 V c 2 t) (iblk0 V c 4 t) (iblk0 V c 3 t) j : EReal)
    = gconv zf (V c main_v14) (V c main_v15) (V c main_arg3) (V c main_arg5) (unrow (V c main_v16)) (((cfg0.win 5).blk t).view.emb j)
  have hj0 : (j 0).val < 10000 := (j 0).isLt
  have hj1 : (j 1).val < 128 := (j 1).isLt
  refine pay_at (iblk0 V c 0 t) (iblk0 V c 1 t) (iblk0 V c 2 t) (iblk0 V c 4 t) (iblk0 V c 3 t)
    (V c main_v14) (V c main_v15) (V c main_arg3) (V c main_arg5) (unrow (V c main_v16)) (win0_5.index t (0 : Fin 2) * 10000)
    j (((cfg0.win 5).blk t).view.emb j) ?_ ?_ ?_ ?_ ?_ ?_ ?_
  · show win0_5.index t (0 : Fin 2) * 10000 + 1 * (j 0).val = win0_5.index t (0 : Fin 2) * 10000 + (j 0).val
    omega
  · show win0_5.index t (1 : Fin 2) * 128 + 1 * (j 1).val = (j 1).val
    omega
  · intro u w h0 h1
    have hu1 : (u 1).val < 16 := (u 1).isLt
    show V c main_v14 (((cfg0.win 0).blk t).view.emb u) = V c main_v14 w
    have e : ((cfg0.win 0).blk t).view.emb u = w := by
      funext a; apply Fin.ext
      match a with
      | ⟨0, _⟩ => show win0_0.index t (0 : Fin 2) * 10000 + 1 * (u 0).val = (w 0).val; omega
      | ⟨1, _⟩ => show win0_0.index t (1 : Fin 2) * 16 + 1 * (u 1).val = (w 1).val; omega
    rw [e]
  · intro u w h0 h1
    have hu1 : (u 1).val < 16 := (u 1).isLt
    show V c main_v15 (((cfg0.win 1).blk t).view.emb u) = V c main_v15 w
    have e : ((cfg0.win 1).blk t).view.emb u = w := by
      funext a; apply Fin.ext
      match a with
      | ⟨0, _⟩ => show win0_1.index t (0 : Fin 2) * 10000 + 1 * (u 0).val = (w 0).val; omega
      | ⟨1, _⟩ => show win0_1.index t (1 : Fin 2) * 16 + 1 * (u 1).val = (w 1).val; omega
    rw [e]
  · intro u
    show V c main_arg3 (((cfg0.win 2).blk t).view.emb u) = V c main_arg3 u
    have e : ((cfg0.win 2).blk t).view.emb u = u := by
      funext a; apply Fin.ext
      match a with
      | ⟨0, _⟩ => show win0_2.index t (0 : Fin 2) * 16 + 1 * (u 0).val = (u 0).val; omega
      | ⟨1, _⟩ => show win0_2.index t (1 : Fin 2) * 128 + 1 * (u 1).val = (u 1).val; omega
    rw [e]
  · intro u
    show V c main_arg5 (((cfg0.win 4).blk t).view.emb u) = V c main_arg5 u
    have e : ((cfg0.win 4).blk t).view.emb u = u := by
      funext a; apply Fin.ext
      match a with
      | ⟨0, _⟩ => show win0_4.index t (0 : Fin 2) * 16 + 1 * (u 0).val = (u 0).val; omega
      | ⟨1, _⟩ => show win0_4.index t (1 : Fin 2) * 128 + 1 * (u 1).val = (u 1).val; omega
    rw [e]
  · intro k
    show V c main_v16 (((cfg0.win 3).blk t).view.emb (ix2 (0 : Fin 1) k)) = V c main_v16 (ix2 (0 : Fin 1) k)
    have e : ((cfg0.win 3).blk t).view.emb (ix2 (0 : Fin 1) k) = ix2 (0 : Fin 1) k := by
      funext a; apply Fin.ext
      match a with
      | ⟨0, _⟩ => show win0_3.index t (0 : Fin 2) * 1 + 1 * 0 = 0; omega
      | ⟨1, _⟩ => show win0_3.index t (1 : Fin 2) * 128 + 1 * k.val = k.val; omega
    rw [e]

/-! ## The blocks tile the output -/

/-- An index of the output is in point `t`'s block iff each coordinate is in the block's range on its axis. -/
theorem mem_blk (t : Fin cfg0.N) (i : S100000x128.Idx) :
    i ∈ ((cfg0.win 5).blk t).view.set ↔ ∀ a : Fin 2, win0_5.index t a * S10000x128.size a ≤ (i a).val
      ∧ (i a).val < win0_5.index t a * S10000x128.size a + S10000x128.size a := by
  show i ∈ ((View.whole main_v17).slice (win0_5.rect t)).set ↔ _
  rw [View.set_slice_whole, Rect.mem_set_unit]
  exact Iff.rfl

/-- Row `r` of the output is in the block of the point whose block index is `r / 10000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 128 ≤ (i 1).val ∧ (i 1).val < win0_5.index t (1 : Fin 2) * 128 + 128
    omega

/-! ## The output array after the region -/

/-- After the region the output array is the convolution step of the arrays the region was entered with. -/
theorem final (c : Dev nD) :
    (dat0 V c).arrAt 5 cfg0.N
      = gconv zf (V c main_v14) (V c main_v15) (V c main_arg3) (V c main_arg5) (unrow (V c main_v16)) :=
  (dat0 V c).arrAt_eq_of_cover 5 _ (fun t _ => flushed_eq V c t) cover

end Cert.KernelIdeal.Conv1

end
-- ==== Proof.Net.lean ====
/-
  THE WHOLE NETWORK AS ONE FUNCTION OF ITS ARGUMENTS, at the ideal values.

  Two graph-convolution steps and a read-out.  The neighbour sums are the host's own: an edge's source node (counted from the
  end when negative) selects a row, and the rows are added up at the edge's destination node.  They are carried here as
  named functions of the feature array and the edge table and never opened: both programs compute them by the same
  operations, so they only have to be applied to equal arrays.  Likewise the per-graph sums and node counts.
      h₁  = gconv (neighbour sums of x) x W1r W1o b1
      h₂  = gconv (neighbour sums of h₁) h₁ W2r W2o b2
      out = poolfc (per-graph sums of h₂) (per-graph node counts) Wfc bfc
-/
import proofs.«178044_j47218870452627_2_alg».proof.Proof.Gen.KernelIdeal
import proofs.«178044_j47218870452627_2_alg».proof.Proof.LibGraphLayers

noncomputable section

namespace Cert.KernelIdeal.Net

open Cert.KernelIdeal Cert.KernelIdeal.Facts₀ Cert.KernelIdeal.Facts Idealize.ShloMosaic Cert.GraphLayers Cert.RowBias

/-- An array of 32-bit integers of shape `s`. -/
abbrev IArr (s : Shape) := (⟨s, .i32⟩ : BufTy).Contents (Elt Ideal)
/-- An array of numbers of shape `s`. -/
abbrev FArr (s : Shape) := (⟨s, .f32⟩ : BufTy).Contents (Elt Ideal)

/-- The edges' source nodes: row 0 of the edge table. -/
def srcOf (e : IArr S2x1600000) : IArr S1600000 :=
  shapeCast S1600000 (extractStridedSlice S1x1600000 ![0, 0] e slices_S2x1600000_S1x1600000_0_0) shapeCasts_S1x1600000_S1600000

/-- The edges' destination nodes: row 1 of the edge table. -/
def dstOf (e : IArr S2x1600000) : IArr S1600000 :=
  shapeCast S1600000 (extractStridedSlice S1x1600000 ![1, 0] e slices_S2x1600000_S1x1600000_1_0) shapeCasts_S1x1600000_S1600000

/-- A vector of node numbers as a column. -/
def col (s : IArr S1600000) : IArr S1600000x1 := broadcastInDim S1600000x1 ![0] bcast_S1600000_S1600000x1_0 s

/-- Node numbers with a negative one counted from the end (100000 added), as a column. -/
def wrapCol (s : IArr S1600000) : IArr S1600000x1 :=
  col (select (cmpi .slt s (broadcastInDim S1600000 ![] bcast_S_S1600000 (constantI S_ 32 0#32)))
    (addi s (broadcastInDim S1600000 ![] bcast_S_S1600000 (constantI S_ 32 100000#32))) s)

/-- Neighbour sums of 16 features: for every edge the source node's row, added up at the destination node. -/
def agg16 (x : FArr S100000x16) (e : IArr S2x1600000) : FArr S100000x16 :=
  Host.scatterAdd (F := Ideal) scatter_S100000x16_S1600000x1_S1600000x16_1_0_0_1
    (broadcastInDim S100000x16 ![] bcast_S_S100000x16 (constant (F := Ideal) S_ .f32 0x00000000#32))
    (col (dstOf e)) (Host.gather gather_S100000x16_S1600000x1_S1600000x16_1_0_n_n_0_1_116 x (wrapCol (srcOf e)))

/-- Neighbour sums of 128 features. -/
def agg128 (h : FArr S100000x128) (e : IArr S2x1600000) : FArr S100000x128 :=
  Host.scatterAdd (F := Ideal) scatter_S100000x128_S1600000x1_S1600000x128_1_0_0_1
    (broadcastInDim S100000x128 ![] bcast_S_S100000x128 (constant (F := Ideal) S_ .f32 0x00000000#32))
    (col (dstOf e)) (Host.gather gather_S100000x128_S1600000x1_S1600000x128_1_0_n_n_0_1_1128 h (wrapCol (srcOf e)))

/-- Per-graph sums of the nodes' features: every node's row added up at its graph's number. -/
def sums (h : FArr S100000x128) (bt : IArr S100000) : FArr S2048x128 :=
  Host.scatterAdd (F := Ideal) scatter_S2048x128_S100000x1_S100000x128_1_0_0_1
    (broadcastInDim S2048x128 ![] bcast_S_S2048x128 (constant (F := Ideal) S_ .f32 0x00000000#32))
    (broadcastInDim S100000x1 ![0] bcast_S100000_S100000x1_0 bt) h

/-- Per-graph node counts: a one for every node added up at its graph's number. -/
def cnts (bt : IArr S100000) : FArr S2048 :=
  Host.scatterAdd (F := Ideal) scatter_S2048_S100000x1_S100000_n_0_0_1
    (broadcastInDim S2048 ![] bcast_S_S2048 (constant (F := Ideal) S_ .f32 0x00000000#32))
    (broadcastInDim S100000x1 ![0] bcast_S100000_S100000x1_0 bt)
    (broadcastInDim S100000 ![] bcast_S_S100000 (constant (F := Ideal) S_ .f32 0x3F800000#32))

/-- The first hidden layer. -/
def hid1 (x : FArr S100000x16) (e : IArr S2x1600000) (W1r : FArr S16x128) (b1 : FArr S128) (W1o : FArr S16x128) : FArr S100000x128 :=
  gconv zf (agg16 x e) x W1r W1o b1

/-- The second hidden layer, from the first. -/
def hid2 (h : FArr S100000x128) (e : IArr S2x1600000) (W2r : FArr S128x128) (b2 : FArr S128) (W2o : FArr S128x128) : FArr S100000x128 :=
  gconv zf (agg128 h e) h W2r W2o b2

/-- The network. -/
def net (x : FArr S100000x16) (e : IArr S2x1600000) (bt : IArr S100000) (W1r : FArr S16x128) (b1 : FArr S128) (W1o : FArr S16x128)
    (W2r : FArr S128x128) (b2 : FArr S128) (W2o : FArr S128x128) (Wfc : FArr S128x2) (bfc : FArr S2) : FArr S2048x2 :=
  poolfc onef (sums (hid2 (hid1 x e W1r b1 W1o) e W2r b2 W2o) bt) (cnts bt) Wfc bfc

end Cert.KernelIdeal.Net

end
-- ==== Proof.LibFormats.lean ====
/-
  A CHANGE OF FLOAT FORMAT IS THE IDENTITY on arrays of extended reals: rounding to a narrower format and widening back are
  both the identity function, so an array converted either way is the array itself.
-/
import Idealize.ShloMosaic.PureOps.Ideal

noncomputable section

namespace Cert.Formats

open Idealize.ShloMosaic

/-- Narrowing an array of extended reals leaves it as it was. -/
theorem truncf_id {s : Shape} {φ : FTy} (ψ : FTy) (v : FVec Ideal s φ) (h : ψ.bits < φ.bits) :
    (truncf ψ v h : s.Idx → EReal) = v := rfl

/-- Widening an array of extended reals leaves it as it was. -/
theorem extf_id {s : Shape} {φ : FTy} (ψ : FTy) (v : FVec Ideal s φ) (h : φ.bits < ψ.bits) :
    (extf ψ v h : s.Idx → EReal) = v := rfl

end Cert.Formats

end
-- ==== Proof.Fold0.lean ====
/-
  THE FOLD THROUGH THE FIRST HOST STRETCH AND THE FIRST CONVOLUTION REGION, read buffer by buffer, at the ideal values.

  After the first host stretch the first region's windows hold the neighbour sums of `x`, `x` itself, the weights and the
  bias as one row (a change of format is the identity on extended reals); the region leaves the first hidden layer in its
  output array.  A buffer that the stretch or the region does not write is carried through.
-/
import proofs.«178044_j47218870452627_2_alg».proof.Proof.Conv1
import proofs.«178044_j47218870452627_2_alg».proof.Proof.Net
import proofs.«178044_j47218870452627_2_alg».proof.Proof.LibFormats

set_option maxRecDepth 16384

noncomputable section

namespace Cert.KernelIdeal.Fold0

open Cert.KernelIdeal Cert.KernelIdeal.Gen Cert.KernelIdeal.Net
open Idealize.ShloMosaic Idealize.ShloMosaic.TcCoe Idealize.ShloMosaic.ValueIdx Idealize.ShloMosaic.StableHlo Idealize.SL.Sem
open Cert.Formats Cert.GraphLayers Cert.RowBias Cert.DenseStep Idealize.ShloMosaic.ColumnLayout

variable (m : (ℓ : Loc nD τ sig) → Buf (Elt Ideal) ℓ) (ρ : Dev nD → PrngReg) (c : Dev nD)

/-! ## After the first host stretch -/

theorem V1_v14 : V1 m ρ c main_v14 = agg16 (m ((c : Thread nD τ).loc main_arg0)) (m ((c : Thread nD τ).loc main_arg1)) := by
  show StableHlo.after hostOps0 (W0 m ρ c) (Proc.devRef .tc main_v14) = _
  dsimp only [hostOps0]
  after_results
  rw [truncf_id]
  rfl

theorem V1_v15 : V1 m ρ c main_v15 = (m ((c : Thread nD τ).loc main_arg0)) := by
  show StableHlo.after hostOps0 (W0 m ρ c) (Proc.devRef .tc main_v15) = _
  dsimp only [hostOps0]
  after_results
  rw [truncf_id]

theorem V1_v16 : V1 m ρ c main_v16 = shapeCast S1x128 (m ((c : Thread nD τ).loc main_arg4)) shapeCasts_S128_S1x128 := by
  show StableHlo.after hostOps0 (W0 m ρ c) (Proc.devRef .tc main_v16) = _
  dsimp only [hostOps0]
  after_results
  rfl

theorem V1_arg3 : V1 m ρ c main_arg3 = (m ((c : Thread nD τ).loc main_arg3)) := by
  show StableHlo.after hostOps0 (W0 m ρ c) (Proc.devRef .tc main_arg3) = _
  dsimp only [hostOps0]
  after_results

theorem V1_arg5 : V1 m ρ c main_arg5 = (m ((c : Thread nD τ).loc main_arg5)) := by
  show StableHlo.after hostOps0 (W0 m ρ c) (Proc.devRef .tc main_arg5) = _
  dsimp only [hostOps0]
  after_results

theorem W1_v1 : W1 m ρ c (Proc.devRef .tc main_v1) = srcOf (m ((c : Thread nD τ).loc main_arg1)) := by
  show StableHlo.after hostOps0 (W0 m ρ c) (Proc.devRef .tc main_v1) = _
  dsimp only [hostOps0]
  after_results
  rfl

theorem W1_v3 : W1 m ρ c (Proc.devRef .tc main_v3) = dstOf (m ((c : Thread nD τ).loc main_arg1)) := by
  show StableHlo.after hostOps0 (W0 m ρ c) (Proc.devRef .tc main_v3) = _
  dsimp only [hostOps0]
  after_results
  rfl

theorem W1_main_arg2 : W1 m ρ c (Proc.devRef .tc main_arg2) = m ((c : Thread nD τ).loc main_arg2) := by
  show StableHlo.after hostOps0 (W0 m ρ c) (Proc.devRef .tc main_arg2) = _
  dsimp only [hostOps0]
  after_results

theorem W1_main_arg6 : W1 m ρ c (Proc.devRef .tc main_arg6) = m ((c : Thread nD τ).loc main_arg6) := by
  show StableHlo.after hostOps0 (W0 m ρ c) (Proc.devRef .tc main_arg6) = _
  dsimp only [hostOps0]
  after_results

theorem W1_main_arg7 : W1 m ρ c (Proc.devRef .tc main_arg7) = m ((c : Thread nD τ).loc main_arg7) := by
  show StableHlo.after hostOps0 (W0 m ρ c) (Proc.devRef .tc main_arg7) = _
  dsimp only [hostOps0]
  after_results

theorem W1_main_arg8 : W1 m ρ c (Proc.devRef .tc main_arg8) = m ((c : Thread nD τ).loc main_arg8) := by
  show StableHlo.after hostOps0 (W0 m ρ c) (Proc.devRef .tc main_arg8) = _
  dsimp only [hostOps0]
  after_results

theorem W1_main_arg9 : W1 m ρ c (Proc.devRef .tc main_arg9) = m ((c : Thread nD τ).loc main_arg9) := by
  show StableHlo.after hostOps0 (W0 m ρ c) (Proc.devRef .tc main_arg9) = _
  dsimp only [hostOps0]
  after_results

theorem W1_main_arg10 : W1 m ρ c (Proc.devRef .tc main_arg10) = m ((c : Thread nD τ).loc main_arg10) := by
  show StableHlo.after hostOps0 (W0 m ρ c) (Proc.devRef .tc main_arg10) = _
  dsimp only [hostOps0]
  after_results

/-! ## After the first convolution region -/

/-- The first region leaves the first hidden layer in its output array. -/
theorem W2_v17 : W2 m ρ c (Proc.devRef .tc main_v17) = (hid1 (m ((c : Thread nD τ).loc main_arg0)) (m ((c : Thread nD τ).loc main_arg1)) (m ((c : Thread nD τ).loc main_arg3)) (m ((c : Thread nD τ).loc main_arg4)) (m ((c : Thread nD τ).loc main_arg5))) := by
  refine (W2_arr m ρ c 5).trans ?_
  rw [Conv1.final (V1 m ρ) c, V1_v14, V1_v15, V1_v16, V1_arg3, V1_arg5, unrow_cast]
  rfl

theorem W2_v1 : W2 m ρ c (Proc.devRef .tc main_v1) = srcOf (m ((c : Thread nD τ).loc main_arg1)) :=
  (W2_of_ne m ρ c main_v1 (by decide)).trans (W1_v1 m ρ c)

theorem W2_v3 : W2 m ρ c (Proc.devRef .tc main_v3) = dstOf (m ((c : Thread nD τ).loc main_arg1)) :=
  (W2_of_ne m ρ c main_v3 (by decide)).trans (W1_v3 m ρ c)

theorem W2_main_arg2 : W2 m ρ c (Proc.devRef .tc main_arg2) = m ((c : Thread nD τ).loc main_arg2) :=
  (W2_of_ne m ρ c main_arg2 (by decide)).trans (W1_main_arg2 m ρ c)

theorem W2_main_arg6 : W2 m ρ c (Proc.devRef .tc main_arg6) = m ((c : Thread nD τ).loc main_arg6) :=
  (W2_of_ne m ρ c main_arg6 (by decide)).trans (W1_main_arg6 m ρ c)

theorem W2_main_arg7 : W2 m ρ c (Proc.devRef .tc main_arg7) = m ((c : Thread nD τ).loc main_arg7) :=
  (W2_of_ne m ρ c main_arg7 (by decide)).trans (W1_main_arg7 m ρ c)

theorem W2_main_arg8 : W2 m ρ c (Proc.devRef .tc main_arg8) = m ((c : Thread nD τ).loc main_arg8) :=
  (W2_of_ne m ρ c main_arg8 (by decide)).trans (W1_main_arg8 m ρ c)

theorem W2_main_arg9 : W2 m ρ c (Proc.devRef .tc main_arg9) = m ((c : Thread nD τ).loc main_arg9) :=
  (W2_of_ne m ρ c main_arg9 (by decide)).trans (W1_main_arg9 m ρ c)

theorem W2_main_arg10 : W2 m ρ c (Proc.devRef .tc main_arg10) = m ((c : Thread nD τ).loc main_arg10) :=
  (W2_of_ne m ρ c main_arg10 (by decide)).trans (W1_main_arg10 m ρ c)

end Cert.KernelIdeal.Fold0

end
-- ==== Proof.Fold1.lean ====
/-
  THE FOLD THROUGH THE SECOND HOST STRETCH AND THE SECOND CONVOLUTION REGION, read buffer by buffer, at the ideal values.

  The second stretch gathers the first hidden layer along the edges and sums it at the destination nodes (a change of
  format is the identity on extended reals); the second region leaves the second hidden layer in its output array.  A
  buffer that the stretch or the region does not write is carried through.
-/
import proofs.«178044_j47218870452627_2_alg».proof.Proof.Conv2
import proofs.«178044_j47218870452627_2_alg».proof.Proof.Fold0

set_option maxRecDepth 16384

noncomputable section

namespace Cert.KernelIdeal.Fold1

open Cert.KernelIdeal Cert.KernelIdeal.Gen Cert.KernelIdeal.Net Cert.KernelIdeal.Fold0
open Idealize.ShloMosaic Idealize.ShloMosaic.TcCoe Idealize.ShloMosaic.ValueIdx Idealize.ShloMosaic.StableHlo Idealize.SL.Sem
open Cert.Formats Cert.GraphLayers Cert.RowBias Cert.DenseStep Idealize.ShloMosaic.ColumnLayout

variable (m : (ℓ : Loc nD τ sig) → Buf (Elt Ideal) ℓ) (ρ : Dev nD → PrngReg) (c : Dev nD)

/-! ## After the second host stretch -/

set_option maxHeartbeats 1000000 in
theorem V3_v29 : V3 m ρ c main_v29 = agg128 (hid1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := by
  show StableHlo.after hostOps1 (W2 m ρ c) (Proc.devRef .tc main_v29) = _
  dsimp only [hostOps1]
  after_results
  rw [truncf_id]
  rw [extf_id]
  rw [W2_v1, W2_v3, W2_v17]
  rfl

theorem V3_v17 : V3 m ρ c main_v17 = (hid1 (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps1 (W2 m ρ c) (Proc.devRef .tc main_v17) = _
  dsimp only [hostOps1]
  after_results
  exact W2_v17 m ρ c

theorem V3_v30 : V3 m ρ c main_v30 = shapeCast S1x128 (m ((c : Thread nD τ).loc main_arg7)) shapeCasts_S128_S1x128 := by
  show StableHlo.after hostOps1 (W2 m ρ c) (Proc.devRef .tc main_v30) = _
  dsimp only [hostOps1]
  after_results
  rw [W2_main_arg7]
  rfl

theorem V3_arg6 : V3 m ρ c main_arg6 = (m ((c : Thread nD τ).loc main_arg6)) := by
  show StableHlo.after hostOps1 (W2 m ρ c) (Proc.devRef .tc main_arg6) = _
  dsimp only [hostOps1]
  after_results
  exact W2_main_arg6 m ρ c

theorem V3_arg8 : V3 m ρ c main_arg8 = (m ((c : Thread nD τ).loc main_arg8)) := by
  show StableHlo.after hostOps1 (W2 m ρ c) (Proc.devRef .tc main_arg8) = _
  dsimp only [hostOps1]
  after_results
  exact W2_main_arg8 m ρ c

theorem W3_main_arg2 : W3 m ρ c (Proc.devRef .tc main_arg2) = m ((c : Thread nD τ).loc main_arg2) := by
  show StableHlo.after hostOps1 (W2 m ρ c) (Proc.devRef .tc main_arg2) = _
  dsimp only [hostOps1]
  after_results
  exact W2_main_arg2 m ρ c

theorem W3_main_arg9 : W3 m ρ c (Proc.devRef .tc main_arg9) = m ((c : Thread nD τ).loc main_arg9) := by
  show StableHlo.after hostOps1 (W2 m ρ c) (Proc.devRef .tc main_arg9) = _
  dsimp only [hostOps1]
  after_results
  exact W2_main_arg9 m ρ c

theorem W3_main_arg10 : W3 m ρ c (Proc.devRef .tc main_arg10) = m ((c : Thread nD τ).loc main_arg10) := by
  show StableHlo.after hostOps1 (W2 m ρ c) (Proc.devRef .tc main_arg10) = _
  dsimp only [hostOps1]
  after_results
  exact W2_main_arg10 m ρ c

/-! ## After the second convolution region -/

/-- The second region leaves the second hidden layer in its output array. -/
theorem W4_v31 : W4 m ρ c (Proc.devRef .tc main_v31) = (hid2 (hid1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) := by
  refine (W4_arr m ρ c 5).trans ?_
  rw [Conv2.final (V3 m ρ) c, V3_v29, V3_v17, V3_v30, V3_arg6, V3_arg8, unrow_cast]
  rfl

theorem W4_main_arg2 : W4 m ρ c (Proc.devRef .tc main_arg2) = m ((c : Thread nD τ).loc main_arg2) :=
  (W4_of_ne m ρ c main_arg2 (by decide)).trans (W3_main_arg2 m ρ c)

theorem W4_main_arg9 : W4 m ρ c (Proc.devRef .tc main_arg9) = m ((c : Thread nD τ).loc main_arg9) :=
  (W4_of_ne m ρ c main_arg9 (by decide)).trans (W3_main_arg9 m ρ c)

theorem W4_main_arg10 : W4 m ρ c (Proc.devRef .tc main_arg10) = m ((c : Thread nD τ).loc main_arg10) :=
  (W4_of_ne m ρ c main_arg10 (by decide)).trans (W3_main_arg10 m ρ c)

end Cert.KernelIdeal.Fold1

end
-- ==== Proof.Fold2.lean ====
/-
  THE FOLD THROUGH THE THIRD HOST STRETCH AND THE READ-OUT REGION: the idealized kernel's result array is the network of its
  arguments.

  The third stretch sums the second hidden layer per graph and counts the nodes per graph, the count reshaped to a column and
  broadcast across the columns; the read-out region leaves the network's result in the result buffer.
-/
import proofs.«178044_j47218870452627_2_alg».proof.Proof.ReadOut
import proofs.«178044_j47218870452627_2_alg».proof.Proof.Fold1

set_option maxRecDepth 16384

noncomputable section

namespace Cert.KernelIdeal.Fold2

open Cert.KernelIdeal Cert.KernelIdeal.Gen Cert.KernelIdeal.Net Cert.KernelIdeal.Fold1
open Idealize.ShloMosaic Idealize.ShloMosaic.TcCoe Idealize.ShloMosaic.ValueIdx Idealize.ShloMosaic.StableHlo Idealize.SL.Sem
open Cert.Formats Cert.GraphLayers Cert.RowBias Cert.DenseStep Idealize.ShloMosaic.ColumnLayout

variable (m : (ℓ : Loc nD τ sig) → Buf (Elt Ideal) ℓ) (ρ : Dev nD → PrngReg) (c : Dev nD)

/-! ## After the third host stretch -/

set_option maxHeartbeats 1000000 in
theorem V5_v35 : V5 m ρ c main_v35 = sums (hid2 (hid1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2)) := by
  show StableHlo.after hostOps2 (W4 m ρ c) (Proc.devRef .tc main_v35) = _
  dsimp only [hostOps2]
  after_results
  rw [extf_id]
  rw [W4_main_arg2, W4_v31]
  rfl

/-- The node counts as the read-out region receives them: a column, broadcast across the 128 columns. -/
theorem V5_v41 : V5 m ρ c main_v41
    = broadcastInDim S2048x128 ![0, 1] bcast_S2048x1_S2048x128_0_1 (shapeCast S2048x1 (cnts (m ((c : Thread nD τ).loc main_arg2))) shapeCasts_S2048_S2048x1) := by
  show StableHlo.after hostOps2 (W4 m ρ c) (Proc.devRef .tc main_v41) = _
  dsimp only [hostOps2]
  after_results
  rw [W4_main_arg2]
  rfl

theorem V5_v42 : V5 m ρ c main_v42 = shapeCast S1x2 (m ((c : Thread nD τ).loc main_arg10)) shapeCasts_S2_S1x2 := by
  show StableHlo.after hostOps2 (W4 m ρ c) (Proc.devRef .tc main_v42) = _
  dsimp only [hostOps2]
  after_results
  rw [W4_main_arg10]
  rfl

theorem V5_arg9 : V5 m ρ c main_arg9 = (m ((c : Thread nD τ).loc main_arg9)) := by
  show StableHlo.after hostOps2 (W4 m ρ c) (Proc.devRef .tc main_arg9) = _
  dsimp only [hostOps2]
  after_results
  exact W4_main_arg9 m ρ c

/-- Row `g` of the broadcast count array is graph `g`'s node count in every column. -/
theorem V5_v41_apply (g : Fin 2048) (k : Fin 128) :
    (V5 m ρ c main_v41 (ix2 g k) : EReal) = cnts (m ((c : Thread nD τ).loc main_arg2)) (ix1 g) := by
  rw [V5_v41, hbcast_col, shapeCast_a_a1_apply]

/-! ## After the read-out region -/

/-- The result buffer ends holding the network of the arguments. -/
theorem W6_v43 : W6 m ρ c (Proc.devRef .tc main_v43)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 4).trans ?_
  rw [ReadOut.final (V5 m ρ) c (cnts (m ((c : Thread nD τ).loc main_arg2))) (V5_v41_apply m ρ c), V5_v35, V5_arg9, V5_v42, unrow_cast]
  rfl

end Cert.KernelIdeal.Fold2

end
-- ==== Proof.RefValue.lean ====
/-
  THE IDEALIZED REFERENCE'S RESULT IS THE NETWORK OF ITS ARGUMENTS.

  The reference's run ends with its result at one composed term of the arguments.  In that term the two graph-convolution
  steps are spelt `(A·Wr + bias) + H·Wo` rectified against the zero constant, and the read-out as the quotient by the
  broadcast maximum of the counts and one, a `dot_general` and a bias; each is the layer function of its operands (the host
  spellings of the layer lemmas).  What is left are the neighbour sums, the per-graph sums and the counts, which are the same
  host operations the kernel's program applies: the term is the network `net` of the arguments.
-/
import proofs.«178044_j47218870452627_2_alg».proof.Proof.Gen.ReferenceIdeal.Run
import proofs.«178044_j47218870452627_2_alg».proof.Proof.Net

set_option maxRecDepth 16384

noncomputable section

namespace Cert.ReferenceIdeal.RefValue

open Cert.ReferenceIdeal Cert.ReferenceIdeal.Facts₀ Cert.ReferenceIdeal.Facts
open Idealize.ShloMosaic Idealize.ShloMosaic.TcCoe Idealize.ShloMosaic.ValueIdx Idealize.SL.Sem
open Cert.GraphLayers Cert.RowBias Cert.DenseStep

/-! ## The three contractions: which entries of the operands an output entry reads -/

theorem d1_lhs : ∀ (p : Fin 100000) (c : Fin 128) (k : Fin 16),
    DotDims.lhsIdx dot_S100000x16_S16x128_S100000x128_1_0_0_1_n_n (ix2 p c) ((contrEquiv1 dot_S100000x16_S16x128_S100000x128_1_0_0_1_n_n 16 rfl rfl).symm k) = ix2 p k := by
  plain_lhs dot_S100000x16_S16x128_S100000x128_1_0_0_1_n_n 16

theorem d1_rhs : ∀ (p : Fin 100000) (c : Fin 128) (k : Fin 16),
    DotDims.rhsIdx dot_S100000x16_S16x128_S100000x128_1_0_0_1_n_n (ix2 p c) ((contrEquiv1 dot_S100000x16_S16x128_S100000x128_1_0_0_1_n_n 16 rfl rfl).symm k) = ix2 k c := by
  plain_rhs dot_S100000x16_S16x128_S100000x128_1_0_0_1_n_n 16

theorem d2_lhs : ∀ (p : Fin 100000) (c : Fin 128) (k : Fin 128),
    DotDims.lhsIdx dot_S100000x128_S128x128_S100000x128_1_0_0_1_n_n (ix2 p c) ((contrEquiv1 dot_S100000x128_S128x128_S100000x128_1_0_0_1_n_n 128 rfl rfl).symm k) = ix2 p k := by
  plain_lhs dot_S100000x128_S128x128_S100000x128_1_0_0_1_n_n 128

theorem d2_rhs : ∀ (p : Fin 100000) (c : Fin 128) (k : Fin 128),
    DotDims.rhsIdx dot_S100000x128_S128x128_S100000x128_1_0_0_1_n_n (ix2 p c) ((contrEquiv1 dot_S100000x128_S128x128_S100000x128_1_0_0_1_n_n 128 rfl rfl).symm k) = ix2 k c := by
  plain_rhs dot_S100000x128_S128x128_S100000x128_1_0_0_1_n_n 128

theorem d3_lhs : ∀ (p : Fin 2048) (c : Fin 2) (k : Fin 128),
    DotDims.lhsIdx dot_S2048x128_S128x2_S2048x2_1_0_0_1_n_n (ix2 p c) ((contrEquiv1 dot_S2048x128_S128x2_S2048x2_1_0_0_1_n_n 128 rfl rfl).symm k) = ix2 p k := by
  plain_lhs dot_S2048x128_S128x2_S2048x2_1_0_0_1_n_n 128

theorem d3_rhs : ∀ (p : Fin 2048) (c : Fin 2) (k : Fin 128),
    DotDims.rhsIdx dot_S2048x128_S128x2_S2048x2_1_0_0_1_n_n (ix2 p c) ((contrEquiv1 dot_S2048x128_S128x2_S2048x2_1_0_0_1_n_n 128 rfl rfl).symm k) = ix2 k c := by
  plain_rhs dot_S2048x128_S128x2_S2048x2_1_0_0_1_n_n 128

/-! ## The result term -/

/-- The reference's result term is the network of the arguments. -/
theorem res_eq (m : (ℓ : Loc nD τ sig) → Buf (Elt Ideal) ℓ) (c : Dev nD) :
    Cert.ReferenceIdeal.Value.res_main_v53 (F := Ideal) m c
      = Cert.KernelIdeal.Net.net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  unfold Cert.ReferenceIdeal.Value.res_main_v53
  rw [host_poolfc dot_S2048x128_S128x2_S2048x2_1_0_0_1_n_n rfl rfl d3_lhs d3_rhs, host_gconv dot_S100000x128_S128x128_S100000x128_1_0_0_1_n_n rfl rfl d2_lhs d2_rhs,
    host_gconv dot_S100000x16_S16x128_S100000x128_1_0_0_1_n_n rfl rfl d1_lhs d1_rhs]
  rfl

end Cert.ReferenceIdeal.RefValue

end
-- ==== Proof.lean ====
/-
  Two graph-convolution layers, a mean pool over graphs and a linear classifier: a tiled kernel program against its
  whole-array reference, over the extended reals.

  Both programs build each layer's neighbour sums by the same host operations (gather the source node's row for every edge,
  add the rows up at the destination node) and the per-graph sums and node counts likewise.  They differ in where the dense
  arithmetic is done.  The kernel program runs three tiled regions: two that compute
  `max ((A·Wr + H·Wo) + b) 0` on blocks of 10000 rows (the two products first, then the bias), and one that divides the
  per-graph sums by `max count 1` (the count already broadcast across the columns), multiplies by the classifier's weights
  and adds its bias.  The reference computes `max ((A·Wr + b) + H·Wo) 0` and the same read-out on whole arrays, with the
  maximum taken on the vector of counts before it is broadcast.  A change of float format is the identity on the extended
  reals, a product into a zero accumulator and a `dot_general` are the same sum, and `(a + b) + c = (a + c) + b` holds of
  all extended reals, so both results are ONE function of the arguments, `Net.net`; no input has to be finite for that.

  The kernel side: the run with the result buffer named (OutRun), each region's output array as the layer function of the
  arrays it finds (Conv1, Conv2, ReadOut), and the fold through the six segments read buffer by buffer (Fold0, Fold1, Fold2).  The
  reference side: its run's composed term is the same function (RefValue).  The idealization rewrote nothing, so there is
  nothing to preserve.
-/
import proofs.«178044_j47218870452627_2_alg».proof.Defs
import proofs.«178044_j47218870452627_2_alg».proof.Proof.Gen.Kernel
import proofs.«178044_j47218870452627_2_alg».proof.Proof.Gen.Kernel.Frame
import proofs.«178044_j47218870452627_2_alg».proof.Proof.Gen.KernelIdeal
import proofs.«178044_j47218870452627_2_alg».proof.Proof.Gen.KernelIdeal.Frame
import proofs.«178044_j47218870452627_2_alg».proof.Proof.Gen.ReferenceIdeal
import proofs.«178044_j47218870452627_2_alg».proof.Proof.Gen.ReferenceIdeal.Run
import proofs.«178044_j47218870452627_2_alg».proof.Proof.Gen.Pre_finite_inputs
import proofs.«178044_j47218870452627_2_alg».proof.Proof.OutRun
import proofs.«178044_j47218870452627_2_alg».proof.Proof.Fold2
import proofs.«178044_j47218870452627_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Fold2.W6_v43 m ρ c), (h c).2⟩)
      (Cert.KernelIdeal.OutRun.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.RefValue.res_eq m' c, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
